-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v39)) (v1 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_v37) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S20000x128 : Shape := ⟨2, ![20000, 128]⟩
abbrev S64x128 : Shape := ⟨2, ![64, 128]⟩
abbrev S128 : Shape := ⟨1, ![128]⟩
abbrev S128x128 : Shape := ⟨2, ![128, 128]⟩
abbrev S1600000 : Shape := ⟨1, ![1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_arg11 : FVec F S128x128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  main_v58

def fn_part2 {F : FTy → Type} [FloatOps F] (main_arg7 : FVec F S128 .f32) (main_arg8 : FVec F S128x128 .f32) (main_arg9 : FVec F S128x128 .f32) (main_arg10 : FVec F S128 .f32) (main_arg11 : FVec F S128x128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S100000x64 .f32) (main_arg1 : FVec F S20000x128 .f32) (main_arg2 : FVec F S64x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : IVec S1600000 32) (main_arg13 : IVec S1600000 32) (main_arg14 : IVec S1600000 32) (main_arg15 : IVec S1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_v13 main_v16
-- ==== Kernel.lean ====
abbrev S100000x64 : Shape := ⟨2, ![100000, 64]⟩
abbrev S20000x128 : Shape := ⟨2, ![20000, 128]⟩
abbrev S64x128 : Shape := ⟨2, ![64, 128]⟩
abbrev S128 : Shape := ⟨1, ![128]⟩
abbrev S128x128 : Shape := ⟨2, ![128, 128]⟩
abbrev S1600000 : Shape := ⟨1, ![1600000]⟩
abbrev S1x128 : Shape := ⟨2, ![1, 128]⟩
abbrev S100000x128 : Shape := ⟨2, ![100000, 128]⟩
abbrev S4000x64 : Shape := ⟨2, ![4000, 64]⟩
abbrev S4000x128 : Shape := ⟨2, ![4000, 128]⟩
abbrev S2000x128 : Shape := ⟨2, ![2000, 128]⟩
abbrev S_ : Shape := ⟨0, ![]⟩
abbrev S1600000x1 : Shape := ⟨2, ![1600000, 1]⟩
abbrev S1600000x128 : Shape := ⟨2, ![1600000, 128]⟩
abbrev S20000 : Shape := ⟨1, ![20000]⟩
abbrev S20000x1 : Shape := ⟨2, ![20000, 1]⟩
abbrev S100000 : Shape := ⟨1, ![100000]⟩
abbrev S100000x1 : Shape := ⟨2, ![100000, 1]⟩
abbrev S2000x1 : Shape := ⟨2, ![2000, 1]⟩
abbrev S4000x1 : Shape := ⟨2, ![4000, 1]⟩

abbrev nBuf : Space → Nat
  | .hbm => 66
  | .vmem => 34
  | .smem => 0
  | _ => 0

abbrev bufTy : (tb : Table) → Fin (tcTables nBuf tb) → BufTy
  | .hbm, ⟨0, _⟩ => ⟨S100000x64, .f32⟩
  | .hbm, ⟨1, _⟩ => ⟨S20000x128, .f32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1x128, .f32⟩
  | .hbm, ⟨17, _⟩ => ⟨S100000x128, .bf16⟩
  | .hbm, ⟨18, _⟩ => ⟨S1x128, .f32⟩
  | .hbm, ⟨19, _⟩ => ⟨S20000x128, .bf16⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x128, .bf16⟩
  | .hbm, ⟨29, _⟩ => ⟨S1600000x128, .f32⟩
  | .hbm, ⟨30, _⟩ => ⟨S_, .f32⟩
  | .hbm, ⟨31, _⟩ => ⟨S20000x128, .f32⟩
  | .hbm, ⟨32, _⟩ => ⟨S1600000x1, .i32⟩
  | .hbm, ⟨33, _⟩ => ⟨S20000x128, .f32⟩
  | .hbm, ⟨34, _⟩ => ⟨S_, .f32⟩
  | .hbm, ⟨35, _⟩ => ⟨S1600000, .f32⟩
  | .hbm, ⟨36, _⟩ => ⟨S_, .f32⟩
  | .hbm, ⟨37, _⟩ => ⟨S20000, .f32⟩
  | .hbm, ⟨38, _⟩ => ⟨S1600000x1, .i32⟩
  | .hbm, ⟨39, _⟩ => ⟨S20000, .f32⟩
  | .hbm, ⟨40, _⟩ => ⟨S20000x1, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .bf16⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S_, .f32⟩
  | .hbm, ⟨56, _⟩ => ⟨S1600000, .f32⟩
  | .hbm, ⟨57, _⟩ => ⟨S_, .f32⟩
  | .hbm, ⟨58, _⟩ => ⟨S100000, .f32⟩
  | .hbm, ⟨59, _⟩ => ⟨S1600000x1, .i32⟩
  | .hbm, ⟨60, _⟩ => ⟨S100000, .f32⟩
  | .hbm, ⟨61, _⟩ => ⟨S100000x1, .f32⟩
  | .hbm, ⟨62, _⟩ => ⟨S1x128, .f32⟩
  | .hbm, ⟨63, _⟩ => ⟨S20000x128, .f32⟩
  | .hbm, ⟨64, _⟩ => ⟨S1x128, .f32⟩
  | .hbm, ⟨65, _⟩ => ⟨S100000x128, .f32⟩
  | .local _ .vmem, ⟨0, _⟩ => ⟨S4000x64, .f32⟩
  | .local _ .vmem, ⟨1, _⟩ => ⟨S4000x64, .f32⟩
  | .local _ .vmem, ⟨2, _⟩ => ⟨S64x128, .f32⟩
  | .local _ .vmem, ⟨3, _⟩ => ⟨S1x128, .f32⟩
  | .local _ .vmem, ⟨4, _⟩ => ⟨S4000x128, .bf16⟩
  | .local _ .vmem, ⟨5, _⟩ => ⟨S4000x128, .bf16⟩
  | .local _ .vmem, ⟨6, _⟩ => ⟨S2000x128, .f32⟩
  | .local _ .vmem, ⟨7, _⟩ => ⟨S2000x128, .f32⟩
  | .local _ .vmem, ⟨8, _⟩ => ⟨S128x128, .f32⟩
  | .local _ .vmem, ⟨9, _⟩ => ⟨S1x128, .f32⟩
  | .local _ .vmem, ⟨10, _⟩ => ⟨S2000x128, .bf16⟩
  | .local _ .vmem, ⟨11, _⟩ => ⟨S2000x128, .bf16⟩
  | .local _ .vmem, ⟨12, _⟩ => ⟨S2000x128, .f32⟩
  | .local _ .vmem, ⟨13, _⟩ => ⟨S2000x128, .f32⟩
  | .local _ .vmem, ⟨14, _⟩ => ⟨S2000x1, .f32⟩
  | .local _ .vmem, ⟨15, _⟩ => ⟨S2000x1, .f32⟩
  | .local _ .vmem, ⟨16, _⟩ => ⟨S2000x128, .bf16⟩
  | .local _ .vmem, ⟨17, _⟩ => ⟨S2000x128, .bf16⟩
  | .local _ .vmem, ⟨18, _⟩ => ⟨S128x128, .f32⟩
  | .local _ .vmem, ⟨19, _⟩ => ⟨S128x128, .f32⟩
  | .local _ .vmem, ⟨20, _⟩ => ⟨S1x128, .f32⟩
  | .local _ .vmem, ⟨21, _⟩ => ⟨S2000x128, .f32⟩
  | .local _ .vmem, ⟨22, _⟩ => ⟨S2000x128, .f32⟩
  | .local _ .vmem, ⟨23, _⟩ => ⟨S4000x128, .f32⟩
  | .local _ .vmem, ⟨24, _⟩ => ⟨S4000x128, .f32⟩
  | .local _ .vmem, ⟨25, _⟩ => ⟨S4000x1, .f32⟩
  | .local _ .vmem, ⟨26, _⟩ => ⟨S4000x1, .f32⟩
  | .local _ .vmem, ⟨27, _⟩ => ⟨S4000x128, .bf16⟩
  | .local _ .vmem, ⟨28, _⟩ => ⟨S4000x128, .bf16⟩
  | .local _ .vmem, ⟨29, _⟩ => ⟨S128x128, .f32⟩
  | .local _ .vmem, ⟨30, _⟩ => ⟨S128x128, .f32⟩
  | .local _ .vmem, ⟨31, _⟩ => ⟨S1x128, .f32⟩
  | .local _ .vmem, ⟨32, _⟩ => ⟨S4000x128, .f32⟩
  | .local _ .vmem, ⟨33, _⟩ => ⟨S4000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_1 : Ref sig .tc := ⟨.hbm, 34, rfl⟩
abbrev main_v15 : Ref sig .tc := ⟨.hbm, 35, rfl⟩
abbrev main_cst_2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_3 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_5 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_6 : Ref sig .tc := ⟨.hbm, 55, rfl⟩
abbrev main_v31 : Ref sig .tc := ⟨.hbm, 56, rfl⟩
abbrev main_cst_7 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg6_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg6_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem6_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem6_1 : DmaSem sig := 33

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S4000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  shapeCasts_S128_S1x128 : S128.ShapeCasts S1x128
  inb_S4000x64_S4000x64_0_0 : ∀ a, (![0, 0] : Fin 2 → Nat) a + S4000x64.size a ≤ S4000x64.size a
  h_S4000x64 : 0 < S4000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  packedbf16_S4000x128_S4000x128_0_0 : (Rect.unit (s := S4000x128) ![0, 0] S4000x128.size inb_S4000x128_S4000x128_0_0).PackedRows (EltTy.packing .bf16)
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  broadcasts_S1x128_S2000x128 : S1x128.Broadcasts S2000x128
  packedbf16_S2000x128_S2000x128_0_0 : (Rect.unit (s := S2000x128) ![0, 0] S2000x128.size inb_S2000x128_S2000x128_0_0).PackedRows (EltTy.packing .bf16)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S20000x128 : S_.BroadcastsInDim S20000x128 (![] : Fin 0 → Fin S20000x128.rank)
  bcast_S_S20000 : S_.BroadcastsInDim S20000 (![] : Fin 0 → Fin S20000.rank)
  shapeCasts_S20000_S20000x1 : S20000.ShapeCasts S20000x1
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  dot_S4000x64_S64x128_S4000x128_1_0_0_1_n_n_wf : DotDims.WF S4000x64 S64x128 S4000x128 [1] [0] [0] [1] [] []
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S20000x128_S1600000x1_S1600000x128_1_0_0_1_wf : ScatterDims.WF S20000x128 S1600000x1 S1600000x128 [1] [0] [0] 1
  scatter_S20000_S1600000x1_S1600000_n_0_0_1_wf : ScatterDims.WF S20000 S1600000x1 S1600000 [] [0] [0] 1
  gather_S20000x128_S1600000x1_S1600000x128_1_0_n_n_0_1_1128_wf : GatherDims.WF S20000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .bf16 = 32 ∨ (Rect.block (s := S100000x128) S4000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S20000x128.size a
  hwx1_0 : ∀ i : grid1.Coords, EltTy.bits .f32 = 32 ∨ (Rect.block (s := S20000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S20000x128.size a
  hwx1_3 : ∀ i : grid1.Coords, EltTy.bits .bf16 = 32 ∨ (Rect.block (s := S20000x128) S2000x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S20000x128.size a
  hwx2_0 : ∀ i : grid2.Coords, EltTy.bits .f32 = 32 ∨ (Rect.block (s := S20000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S20000x1.size a
  hwx2_1 : ∀ i : grid2.Coords, EltTy.bits .f32 = 32 ∨ (Rect.block (s := S20000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S20000x128.size a
  hwx2_2 : ∀ i : grid2.Coords, EltTy.bits .bf16 = 32 ∨ (Rect.block (s := S20000x128) S2000x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S20000x128.size a
  hwx2_6 : ∀ i : grid2.Coords, EltTy.bits .f32 = 32 ∨ (Rect.block (s := S20000x128) S2000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x1.size a ≤ S100000x1.size a
  hwx3_1 : ∀ i : grid3.Coords, EltTy.bits .f32 = 32 ∨ (Rect.block (s := S100000x1) S4000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x128.size a ≤ S100000x128.size a
  hwx3_2 : ∀ i : grid3.Coords, EltTy.bits .bf16 = 32 ∨ (Rect.block (s := S100000x128) S4000x128.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4000x128.size a ≤ S100000x128.size a
  hwx3_6 : ∀ i : grid3.Coords, EltTy.bits .f32 = 32 ∨ (Rect.block (s := S100000x128) S4000x128.size (cc3_transform_6 i) (hinb3_6 i)).WholeWords (EltTy.packing .f32)

variable [Facts₀]

def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S20000x128_S1600000x1_S1600000x128_1_0_0_1 : ScatterDims S20000x128 S1600000x1 S1600000x128 where
  updateWindowDims := [1]
  insertedWindowDims := [0]
  scatterDimsToOperandDims := [0]
  indexVectorDim := 1
  wf := scatter_S20000x128_S1600000x1_S1600000x128_1_0_0_1_wf
def scatter_S20000_S1600000x1_S1600000_n_0_0_1 : ScatterDims S20000 S1600000x1 S1600000 where
  updateWindowDims := []
  insertedWindowDims := [0]
  scatterDimsToOperandDims := [0]
  indexVectorDim := 1
  wf := scatter_S20000_S1600000x1_S1600000_n_0_0_1_wf
def gather_S20000x128_S1600000x1_S1600000x128_1_0_n_n_0_1_1128 : GatherDims S20000x128 S1600000x1 S1600000x128 where
  offsetDims := [1]
  collapsedSliceDims := [0]
  operandBatchingDims := []
  startIndicesBatchingDims := []
  startIndexMap := [0]
  indexVectorDim := 1
  sliceSizes := ![1, 128]
  wf := gather_S20000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v14) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v36) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v37) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v30) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v35) S4000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v1) S4000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg11) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v38) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v39) S4000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x64 : Shape := ⟨2, ![100000, 64]⟩
abbrev S20000x128 : Shape := ⟨2, ![20000, 128]⟩
abbrev S64x128 : Shape := ⟨2, ![64, 128]⟩
abbrev S128 : Shape := ⟨1, ![128]⟩
abbrev S128x128 : Shape := ⟨2, ![128, 128]⟩
abbrev S1600000 : Shape := ⟨1, ![1600000]⟩
abbrev S100000x128 : Shape := ⟨2, ![100000, 128]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S20000 : Shape := ⟨1, ![20000]⟩
abbrev S20000x1 : Shape := ⟨2, ![20000, 1]⟩
abbrev S100000 : Shape := ⟨1, ![100000]⟩
abbrev S100000x1 : Shape := ⟨2, ![100000, 1]⟩

abbrev nBuf : Space → Nat
  | .hbm => 92
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S20000x128, .f32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S100000x128, .f32⟩
  | .hbm, ⟨17, _⟩ => ⟨S1x128, .f32⟩
  | .hbm, ⟨18, _⟩ => ⟨S100000x128, .f32⟩
  | .hbm, ⟨19, _⟩ => ⟨S100000x128, .f32⟩
  | .hbm, ⟨20, _⟩ => ⟨S_, .f32⟩
  | .hbm, ⟨21, _⟩ => ⟨S100000x128, .f32⟩
  | .hbm, ⟨22, _⟩ => ⟨S100000x128, .f32⟩
  | .hbm, ⟨23, _⟩ => ⟨S20000x128, .f32⟩
  | .hbm, ⟨24, _⟩ => ⟨S1x128, .f32⟩
  | .hbm, ⟨25, _⟩ => ⟨S20000x128, .f32⟩
  | .hbm, ⟨26, _⟩ => ⟨S20000x128, .f32⟩
  | .hbm, ⟨27, _⟩ => ⟨S_, .f32⟩
  | .hbm, ⟨28, _⟩ => ⟨S20000x128, .f32⟩
  | .hbm, ⟨29, _⟩ => ⟨S20000x128, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S_, .f32⟩
  | .hbm, ⟨40, _⟩ => ⟨S20000x128, .f32⟩
  | .hbm, ⟨41, _⟩ => ⟨S1600000x1, .i32⟩
  | .hbm, ⟨42, _⟩ => ⟨S20000x128, .f32⟩
  | .hbm, ⟨43, _⟩ => ⟨S_, .f32⟩
  | .hbm, ⟨44, _⟩ => ⟨S1600000, .f32⟩
  | .hbm, ⟨45, _⟩ => ⟨S_, .f32⟩
  | .hbm, ⟨46, _⟩ => ⟨S20000, .f32⟩
  | .hbm, ⟨47, _⟩ => ⟨S1600000x1, .i32⟩
  | .hbm, ⟨48, _⟩ => ⟨S20000, .f32⟩
  | .hbm, ⟨49, _⟩ => ⟨S_, .f32⟩
  | .hbm, ⟨50, _⟩ => ⟨S20000, .f32⟩
  | .hbm, ⟨51, _⟩ => ⟨S20000, .f32⟩
  | .hbm, ⟨52, _⟩ => ⟨S20000x1, .f32⟩
  | .hbm, ⟨53, _⟩ => ⟨S20000x128, .f32⟩
  | .hbm, ⟨54, _⟩ => ⟨S20000x128, .f32⟩
  | .hbm, ⟨55, _⟩ => ⟨S20000x128, .f32⟩
  | .hbm, ⟨56, _⟩ => ⟨S1x128, .f32⟩
  | .hbm, ⟨57, _⟩ => ⟨S20000x128, .f32⟩
  | .hbm, ⟨58, _⟩ => ⟨S20000x128, .f32⟩
  | .hbm, ⟨59, _⟩ => ⟨S20000x128, .f32⟩
  | .hbm, ⟨60, _⟩ => ⟨S20000x128, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x128, .f32⟩
  | .hbm, ⟨70, _⟩ => ⟨S_, .f32⟩
  | .hbm, ⟨71, _⟩ => ⟨S100000x128, .f32⟩
  | .hbm, ⟨72, _⟩ => ⟨S1600000x1, .i32⟩
  | .hbm, ⟨73, _⟩ => ⟨S100000x128, .f32⟩
  | .hbm, ⟨74, _⟩ => ⟨S_, .f32⟩
  | .hbm, ⟨75, _⟩ => ⟨S1600000, .f32⟩
  | .hbm, ⟨76, _⟩ => ⟨S_, .f32⟩
  | .hbm, ⟨77, _⟩ => ⟨S100000, .f32⟩
  | .hbm, ⟨78, _⟩ => ⟨S1600000x1, .i32⟩
  | .hbm, ⟨79, _⟩ => ⟨S100000, .f32⟩
  | .hbm, ⟨80, _⟩ => ⟨S_, .f32⟩
  | .hbm, ⟨81, _⟩ => ⟨S100000, .f32⟩
  | .hbm, ⟨82, _⟩ => ⟨S100000, .f32⟩
  | .hbm, ⟨83, _⟩ => ⟨S100000x1, .f32⟩
  | .hbm, ⟨84, _⟩ => ⟨S100000x128, .f32⟩
  | .hbm, ⟨85, _⟩ => ⟨S100000x128, .f32⟩
  | .hbm, ⟨86, _⟩ => ⟨S100000x128, .f32⟩
  | .hbm, ⟨87, _⟩ => ⟨S1x128, .f32⟩
  | .hbm, ⟨88, _⟩ => ⟨S100000x128, .f32⟩
  | .hbm, ⟨89, _⟩ => ⟨S100000x128, .f32⟩
  | .hbm, ⟨90, _⟩ => ⟨S100000x128, .f32⟩
  | .hbm, ⟨91, _⟩ => ⟨S100000x128, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_cst : Ref sig .tc := ⟨.hbm, 20, rfl⟩
abbrev main_call0_v0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_call1_cst : Ref sig .tc := ⟨.hbm, 27, rfl⟩
abbrev main_call1_v0 : Ref sig .tc := ⟨.hbm, 28, rfl⟩
abbrev main_v9 : Ref sig .tc := ⟨.hbm, 29, rfl⟩
abbrev main_c : Ref sig .tc := ⟨.hbm, 30, rfl⟩
abbrev main_v10 : Ref sig .tc := ⟨.hbm, 31, rfl⟩
abbrev main_v11 : Ref sig .tc := ⟨.hbm, 32, rfl⟩
abbrev main_c_0 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_1 : Ref sig .tc := ⟨.hbm, 43, rfl⟩
abbrev main_v20 : Ref sig .tc := ⟨.hbm, 44, rfl⟩
abbrev main_cst_2 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_3 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_c_4 : Ref sig .tc := ⟨.hbm, 61, rfl⟩
abbrev main_v35 : Ref sig .tc := ⟨.hbm, 62, rfl⟩
abbrev main_v36 : Ref sig .tc := ⟨.hbm, 63, rfl⟩
abbrev main_c_5 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_6 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_7 : Ref sig .tc := ⟨.hbm, 74, rfl⟩
abbrev main_v45 : Ref sig .tc := ⟨.hbm, 75, rfl⟩
abbrev main_cst_8 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_9 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S1x128_S20000x128_0_1 : S1x128.BroadcastsInDim S20000x128 (![0, 1] : Fin 2 → Fin S20000x128.rank)
  bcast_S_S20000x128 : S_.BroadcastsInDim S20000x128 (![] : Fin 0 → Fin S20000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  dot_S100000x64_S64x128_S100000x128_1_0_0_1_n_n_wf : DotDims.WF S100000x64 S64x128 S100000x128 [1] [0] [0] [1] [] []
  dot_S20000x128_S128x128_S20000x128_1_0_0_1_n_n_wf : DotDims.WF S20000x128 S128x128 S20000x128 [1] [0] [0] [1] [] []
  gather_S100000x128_S1600000x1_S1600000x128_1_0_n_n_0_1_1128_wf : GatherDims.WF S100000x128 S1600000x1 S1600000x128 [1] [0] [] [0] [] 1 ![1, 128]
  scatter_S20000x128_S1600000x1_S1600000x128_1_0_0_1_wf : ScatterDims.WF S20000x128 S1600000x1 S1600000x128 [1] [0] [0] 1
  scatter_S20000_S1600000x1_S1600000_n_0_0_1_wf : ScatterDims.WF S20000 S1600000x1 S1600000 [] [0] [0] 1
  gather_S20000x128_S1600000x1_S1600000x128_1_0_n_n_0_1_1128_wf : GatherDims.WF S20000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S20000x128_S1600000x1_S1600000x128_1_0_0_1 : ScatterDims S20000x128 S1600000x1 S1600000x128 where
  updateWindowDims := [1]
  insertedWindowDims := [0]
  scatterDimsToOperandDims := [0]
  indexVectorDim := 1
  wf := scatter_S20000x128_S1600000x1_S1600000x128_1_0_0_1_wf
def scatter_S20000_S1600000x1_S1600000_n_0_0_1 : ScatterDims S20000 S1600000x1 S1600000 where
  updateWindowDims := []
  insertedWindowDims := [0]
  scatterDimsToOperandDims := [0]
  indexVectorDim := 1
  wf := scatter_S20000_S1600000x1_S1600000_n_0_0_1_wf
def gather_S20000x128_S1600000x1_S1600000x128_1_0_n_n_0_1_1128 : GatherDims S20000x128 S1600000x1 S1600000x128 where
  offsetDims := [1]
  collapsedSliceDims := [0]
  operandBatchingDims := []
  startIndicesBatchingDims := []
  startIndexMap := [0]
  indexVectorDim := 1
  sliceSizes := ![1, 128]
  wf := gather_S20000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The kernel program's run with its two result arrays named: every weakly fair execution from any memory with zero
  counters terminates, nothing faulting, with the user result and the game result at the contents the program's last
  segment boundary holds for them, and every argument array as launched.
-/
import proofs.«167684_j89412629168563_2_alg».proof.Proof.Gen.KernelIdeal.Frame

set_option maxRecDepth 16384

noncomputable section

namespace Cert.Sage.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the program's eight segments, read at the two results and the sixteen arguments. -/
theorem run : θ_run defs (onTc (τ := τ) (main (F := F))) ⟨m, fun _ => 0, ρ⟩ (fun r => ∀ c : Dev nD,
      r.2.mem ((c.tc : Thread nD τ).loc main_v39) = W8 m ρ c (Proc.devRef .tc main_v39)
      ∧ r.2.mem ((c.tc : Thread nD τ).loc main_v37) = W8 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v39 (by decide)), h c _ (mem_uc main_v37 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c)⟩)

end Cert.Sage.KernelRun

end
-- ==== Proof.LibSplitContraction.lean ====
/-
  Two general facts about contractions, for any sizes.

  * `sum_joined`: a sum over `Fin (p + q)` whose first `p` terms are `f` and whose last `q` terms are `g` is
    the sum of `f` plus the sum of `g` (any commutative monoid; on the extended reals no finiteness is
    needed).  It joins a product taken over a concatenated axis with the two products taken piece by piece.
  * `matmul_zero_at`: a matrix product (rows × contracted axis, contracted axis × columns) into the zero
    accumulator, read at entry (r, c) at the ideal instance, is the sum over the contracted axis of
    `lhs[r,k] · rhs[k,c]`.
-/
import Idealize.ShloMosaic.PureOps.Ideal.Laws
import Idealize.ShloMosaic.Lib.ValueIdx

noncomputable section

namespace Cert.Lib.SplitContraction

open Idealize.ShloMosaic Idealize.ShloMosaic.ValueIdx

/-- A sum over the joined axis, whose first `p` terms are `f` and whose last `q` terms are `g`, is the
    sum of `f` plus the sum of `g`. -/
theorem sum_joined {M : Type} [AddCommMonoid M] (p q : Nat) (h : Fin (p + q) → M) (f : Fin p → M) (g : Fin q → M)
    (hf : ∀ k : Fin p, h (Fin.castAdd q k) = f k) (hg : ∀ k : Fin q, h (Fin.natAdd p k) = g k) :
    ∑ k : Fin (p + q), h k = ∑ k : Fin p, f k + ∑ k : Fin q, g k := by
  rw [Fin.sum_univ_add]
  exact congrArg₂ (· + ·) (Finset.sum_congr rfl fun k _ => hf k) (Finset.sum_congr rfl fun k _ => hg k)

/-- A matrix product (rows × contracted axis, contracted axis × columns) into the zero accumulator, read
    at entry (r, c): the sum over the contracted axis of the row's entries times the column's.  The four
    hypotheses name the coordinates of the operands' indices at an output index and a contraction index
    (for a printed dimension record: two by unfolding the index maps, two by the library's
    `lhsIdx_val_of_single` / `rhsIdx_val_of_single`). -/
theorem matmul_zero_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision)
    (lhs : FVec Ideal ⟨2, ![n, K]⟩ φ₁) (rhs : FVec Ideal ⟨2, ![K, d]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.SplitContraction

end
-- ==== Proof.LibColumnBroadcast.lean ====
/-
  A column broadcast along rows, read at an index: the companion of the library's one-row form
  (`broadcastTo_1b_ab_apply`, one row repeated down the rows) for one COLUMN repeated across the columns.
-/
import Idealize.ShloMosaic.Lib.Pipeline.Value
import Idealize.ShloMosaic.Lib.ValueIdx

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibKeepdimsColumn.lean ====
/-
  A vector of extent `a` seen as a column `[a, 1]`: what `keepdims=True` leaves of a sum over the last axis, and what a
  reshape of a flat array to a column is. Row-major, the element at `(i, u)` of the column is the element at `i` of the
  vector, since `i · 1 + u = i` for the one value `u = 0`. And the sums over the index sets of a flat array and of a
  column, each as the sum over the one coordinate that varies.
-/
import Idealize.ShloMosaic.Lib.ValueLayout

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over the indices of a column `[n, 1]` is the sum over its rows, each read at the one column `0`. -/
theorem sum_idx_column {M : Type*} [AddCommMonoid M] {n : Nat} (f : (⟨2, ![n, 1]⟩ : Shape).Idx → M) :
    ∑ i, f i = ∑ a : Fin n, f (ix2 a (0 : Fin 1)) := by
  rw [sum_idx2]
  exact Finset.sum_congr rfl fun a _ => Fin.sum_univ_one _

end Cert.LibKeepdims

end
-- ==== Proof.Spec.lean ====
/-
  The mathematics of the two-relation mean-aggregation layer, as whole-array functions over the extended reals.

  * `project X W b`: a linear layer with bias followed by a rectifier, entry (r, c) being
    max (∑ₖ X[r,k]·W[k,c] + b[0,c]) 0.
  * `combine S C H Wl Wr b`: the relation update: entry (r, c) is
    (∑ₖ (S[r,k] / max C[r,0] 1)·Wl[k,c] + b[0,c]) + ∑ₖ H[r,k]·Wr[k,c]
    — the neighbour sum S divided by the clamped neighbour count C (the mean), through the left weights, plus the bias,
    plus the node's own features H through the right weights.

  Both are read off two spellings: a row tile computed on a matrix unit (a product into a zero accumulator, the
  bias row repeated down the tile, the count column repeated across it), and the whole-array host spelling (a
  contraction, the bias and the count broadcast in two steps).  No law of arithmetic is used: each spelling is the
  same tree of operations at every entry, so nothing here asks the entries to be finite.
-/
import Idealize.ShloMosaic.PureOps.Ideal.Laws
import Idealize.ShloMosaic.Lib.ValueIdx
import Idealize.ShloMosaic.Lib.ValueLayout
import Idealize.ShloMosaic.Lib.Pipeline.Value
import proofs.«167684_j89412629168563_2_alg».proof.Proof.LibSplitContraction
import proofs.«167684_j89412629168563_2_alg».proof.Proof.LibColumnBroadcast
import proofs.«167684_j89412629168563_2_alg».proof.Proof.LibKeepdimsColumn

noncomputable section

namespace Cert.Sage

open Idealize.ShloMosaic Idealize.ShloMosaic.ValueIdx

/-- A matrix of extended reals with `n` rows and `d` columns. -/
abbrev Mat (n d : Nat) := (⟨2, ![n, d]⟩ : Shape).Idx → EReal

/-- Linear layer, bias row, rectifier. -/
def project {n K d : Nat} (X : Mat n K) (W : Mat K d) (b : Mat 1 d) : Mat n d :=
  fun i => max (∑ k : Fin K, X (ix2 (i 0) k) * W (ix2 k (i 1)) + b (ix2 (0 : Fin 1) (i 1))) (Ideal.ofBits .f32 0x00000000#32)

/-- The relation update: mean of the neighbour sum through the left weights, bias, own features through the right weights. -/
def combine {n d : Nat} (S : Mat n d) (C : Mat n 1) (H : Mat n d) (Wl Wr : Mat d d) (b : Mat 1 d) : Mat n d :=
  fun i => (∑ k : Fin d, Ideal.div (S (ix2 (i 0) k)) (max (C (ix2 (i 0) (0 : Fin 1))) (Ideal.ofBits .f32 0x3F800000#32)) * Wl (ix2 k (i 1))
      + b (ix2 (0 : Fin 1) (i 1))) + ∑ k : Fin d, H (ix2 (i 0) k) * Wr (ix2 k (i 1))

/-- The coordinate facts of a plain rows × columns contraction record. -/
structure Plain {n K d : Nat} (D : DotDims ⟨2, ![n, K]⟩ ⟨2, ![K, d]⟩ ⟨2, ![n, d]⟩) : Prop where
  hr : D.contr.rank = 1
  hs : D.contr.size ⟨0, by omega⟩ = K
  hl0 : ∀ j q, (D.lhsIdx j q 0).val = (j 0).val
  hl1 : ∀ j q, (D.lhsIdx j q 1).val = (q ⟨0, by omega⟩).val
  hr0 : ∀ j q, (D.rhsIdx j q 0).val = (q ⟨0, by omega⟩).val
  hr1 : ∀ j q, (D.rhsIdx j q 1).val = (j 1).val

/-- The host's contraction read at an entry. -/
theorem dotGeneral_at {n K d : Nat} {φ₁ φ₂ : FTy} (D : DotDims ⟨2, ![n, K]⟩ ⟨2, ![K, d]⟩ ⟨2, ![n, d]⟩) (P : Plain D)
    (prec : Option ContractPrecision) (lhs : FVec Ideal ⟨2, ![n, K]⟩ φ₁) (rhs : FVec Ideal ⟨2, ![K, d]⟩ φ₂) (r : Fin n) (c : Fin d) :
    Host.dotGeneral D prec lhs rhs (ix2 r c) = ∑ k : Fin K, lhs (ix2 r k) * rhs (ix2 k c) := by
  simp only [Host.dotGeneral]
  rw [Ideal.dotGeneral_apply, ← Equiv.sum_comp (contrEquiv1 D K P.hr P.hs).symm]
  refine Finset.sum_congr rfl fun k _ => ?_
  have hk := contrEquiv1_symm_val D K P.hr P.hs k
  have el : D.lhsIdx (ix2 r c) ((contrEquiv1 D K P.hr P.hs).symm k) = ix2 r k := funext fun a => Fin.ext (by
    match a with
    | ⟨0, _⟩ => exact P.hl0 _ _
    | ⟨1, _⟩ => exact (P.hl1 _ _).trans hk)
  have er : D.rhsIdx (ix2 r c) ((contrEquiv1 D K P.hr P.hs).symm k) = ix2 k c := funext fun a => Fin.ext (by
    match a with
    | ⟨0, _⟩ => exact (P.hr0 _ _).trans hk
    | ⟨1, _⟩ => exact P.hr1 _ _)
  rw [el, er]

/-- A row tile of the projection as the matrix unit computes it. -/
theorem project_tile {n K d : Nat} (D : DotDims ⟨2, ![n, K]⟩ ⟨2, ![K, d]⟩ ⟨2, ![n, d]⟩) (P : Plain D)
    (x : FVec Ideal ⟨2, ![n, K]⟩ .f32) (w : FVec Ideal ⟨2, ![K, d]⟩ .f32) (b : FVec Ideal ⟨2, ![1, d]⟩ .f32)
    (hb : FTy.bf16.bits < FTy.f32.bits)
    (hsc : (⟨2, ![1, d]⟩ : Shape).ShapeCasts ⟨2, ![1, d]⟩) (hbc : (⟨2, ![1, d]⟩ : Shape).Broadcasts ⟨2, ![n, d]⟩) :
    (truncf .bf16 (maximumf (addf (matmul D none (truncf .bf16 x hb) (truncf .bf16 w hb) (constant ⟨2, ![n, d]⟩ .f32 0x00000000#32))
        (broadcastTo ⟨2, ![n, d]⟩ (shapeCast ⟨2, ![1, d]⟩ b hsc) hbc)) (broadcast ⟨2, ![n, d]⟩ (Scalar.ofBits (F := Ideal) .f32 0x00000000#32))) hb
      : FVec Ideal ⟨2, ![n, d]⟩ .bf16) = project x w b := by
  funext j
  obtain ⟨p, q, rfl⟩ : ∃ (p : Fin n) (q : Fin d), j = ix2 p q := ⟨j 0, j 1, eq_ix2 j⟩
  rw [shapeCast_self]
  show max (FloatOps.matmul D none (truncf .bf16 x hb) (truncf .bf16 w hb) (constant (F := Ideal) ⟨2, ![n, d]⟩ .f32 0x00000000#32) (ix2 p q)
      + broadcastTo ⟨2, ![n, d]⟩ b hbc (ix2 p q)) (Ideal.ofBits .f32 0x00000000#32)
    = max (∑ k : Fin K, x (ix2 p k) * w (ix2 k q) + b (ix2 (0 : Fin 1) q)) (Ideal.ofBits .f32 0x00000000#32)
  rw [Cert.Lib.SplitContraction.matmul_zero_at D P.hr P.hs P.hl0 P.hl1 P.hr0 P.hr1, broadcastTo_1b_ab_apply]
  rfl

/-- A row tile of the relation update as the matrix unit computes it: the count column clamped at one and repeated
    across the tile, the quotient through the left weights, the bias row, the own features through the right weights. -/
theorem combine_tile {n d : Nat} (D : DotDims ⟨2, ![n, d]⟩ ⟨2, ![d, d]⟩ ⟨2, ![n, d]⟩) (P : Plain D)
    (s : FVec Ideal ⟨2, ![n, d]⟩ .f32) (c : FVec Ideal ⟨2, ![n, 1]⟩ .f32) (h : FVec Ideal ⟨2, ![n, d]⟩ .bf16)
    (wl wr : FVec Ideal ⟨2, ![d, d]⟩ .f32) (b : FVec Ideal ⟨2, ![1, d]⟩ .f32)
    (hb : FTy.bf16.bits < FTy.f32.bits)
    (hs1 : (⟨2, ![n, d]⟩ : Shape).ShapeCasts ⟨2, ![n, d]⟩) (hs2 : (⟨2, ![n, 1]⟩ : Shape).ShapeCasts ⟨2, ![n, 1]⟩)
    (hs3 : (⟨2, ![1, d]⟩ : Shape).ShapeCasts ⟨2, ![1, d]⟩)
    (hbc1 : (⟨2, ![n, 1]⟩ : Shape).Broadcasts ⟨2, ![n, d]⟩) (hbc2 : (⟨2, ![1, d]⟩ : Shape).Broadcasts ⟨2, ![n, d]⟩) :
    (addf (addf (matmul D none
          (truncf .bf16 (divf (shapeCast ⟨2, ![n, d]⟩ s hs1)
            (broadcastTo ⟨2, ![n, d]⟩ (maximumf (shapeCast ⟨2, ![n, 1]⟩ c hs2) (broadcast ⟨2, ![n, 1]⟩ (Scalar.ofBits (F := Ideal) .f32 0x3F800000#32))) hbc1)) hb)
          (truncf .bf16 wl hb) (constant ⟨2, ![n, d]⟩ .f32 0x00000000#32))
        (broadcastTo ⟨2, ![n, d]⟩ (shapeCast ⟨2, ![1, d]⟩ b hs3) hbc2))
      (matmul D none (shapeCast ⟨2, ![n, d]⟩ h hs1) (truncf .bf16 wr hb) (constant ⟨2, ![n, d]⟩ .f32 0x00000000#32))
      : FVec Ideal ⟨2, ![n, d]⟩ .f32) = combine s c h wl wr b := by
  funext j
  obtain ⟨p, q, rfl⟩ : ∃ (p : Fin n) (q : Fin d), j = ix2 p q := ⟨j 0, j 1, eq_ix2 j⟩
  rw [shapeCast_self, shapeCast_self, shapeCast_self, shapeCast_self]
  have hB : ∀ k : Fin d, broadcastTo ⟨2, ![n, d]⟩ (maximumf c (broadcast ⟨2, ![n, 1]⟩ (Scalar.ofBits (F := Ideal) .f32 0x3F800000#32))) hbc1 (ix2 p k)
      = max (c (ix2 p (0 : Fin 1))) (Ideal.ofBits .f32 0x3F800000#32) := fun k => broadcastTo_a1_ab_apply _ hbc1 p k
  show (FloatOps.matmul D none (truncf .bf16 (divf s
          (broadcastTo ⟨2, ![n, d]⟩ (maximumf c (broadcast ⟨2, ![n, 1]⟩ (Scalar.ofBits (F := Ideal) .f32 0x3F800000#32))) hbc1)) hb)
          (truncf .bf16 wl hb) (constant (F := Ideal) ⟨2, ![n, d]⟩ .f32 0x00000000#32) (ix2 p q)
        + broadcastTo ⟨2, ![n, d]⟩ b hbc2 (ix2 p q))
      + FloatOps.matmul D none h (truncf .bf16 wr hb) (constant (F := Ideal) ⟨2, ![n, d]⟩ .f32 0x00000000#32) (ix2 p q)
    = (∑ k : Fin d, Ideal.div (s (ix2 p k)) (max (c (ix2 p (0 : Fin 1))) (Ideal.ofBits .f32 0x3F800000#32)) * wl (ix2 k q)
        + b (ix2 (0 : Fin 1) q)) + ∑ k : Fin d, h (ix2 p k) * wr (ix2 k q)
  rw [Cert.Lib.SplitContraction.matmul_zero_at D P.hr P.hs P.hl0 P.hl1 P.hr0 P.hr1,
    Cert.Lib.SplitContraction.matmul_zero_at D P.hr P.hs P.hl0 P.hl1 P.hr0 P.hr1, broadcastTo_1b_ab_apply]
  refine congrArg₂ (· + ·) (congrArg₂ (· + ·) (Finset.sum_congr rfl fun k _ => ?_) rfl) rfl
  exact congrArg (fun z => Ideal.div (s (ix2 p k)) z * wl (ix2 k q)) (hB k)

/-- The bias vector broadcast to one row and then down the rows, read at an entry. -/
theorem bias_rows_at {n d : Nat} {α : Type} (b : (⟨1, ![d]⟩ : Shape).Idx → α)
    (h1 : (⟨1, ![d]⟩ : Shape).BroadcastsInDim ⟨2, ![1, d]⟩ ![1]) (h2 : (⟨2, ![1, d]⟩ : Shape).BroadcastsInDim ⟨2, ![n, d]⟩ ![0, 1])
    (r : Fin n) (c : Fin d) :
    broadcastInDim ⟨2, ![n, d]⟩ ![0, 1] h2 (broadcastInDim ⟨2, ![1, d]⟩ ![1] h1 b) (ix2 r c) = b (ix1 c) := by
  rw [broadcastInDim_apply ![0, 1] h2 _ (ix2 r c) (ix2 (0 : Fin 1) c) (fun a => by
    match a with
    | ⟨0, _⟩ => rfl
    | ⟨1, _⟩ =>
      show c.val = if d = 1 then 0 else c.val
      split
      · have := c.isLt; omega
      · rfl)]
  exact broadcastInDim_apply ![1] h1 b (ix2 (0 : Fin 1) c) (ix1 c) (fun a => by
    match a with
    | ⟨0, _⟩ =>
      show c.val = if d = 1 then 0 else c.val
      split
      · have := c.isLt; omega
      · rfl)

/-- A scalar broadcast to a matrix, read at an entry. -/
theorem scalar_at {n d : Nat} {α : Type} (x : (⟨0, ![]⟩ : Shape).Idx → α)
    (h0 : (⟨0, ![]⟩ : Shape).BroadcastsInDim ⟨2, ![n, d]⟩ ![]) (i : (⟨2, ![n, d]⟩ : Shape).Idx) :
    broadcastInDim ⟨2, ![n, d]⟩ ![] h0 x i = x ix0 :=
  broadcastInDim_apply ![] h0 x i ix0 (fun a => a.elim0)

/-- The projection as the host spells it: a contraction, the bias broadcast in two steps, a maximum with a broadcast
    zero — the same function of the operands as the tiles', the bias row being the bias vector seen as one row. -/
theorem project_host {n K d : Nat} (D : DotDims ⟨2, ![n, K]⟩ ⟨2, ![K, d]⟩ ⟨2, ![n, d]⟩) (P : Plain D)
    (X : FVec Ideal ⟨2, ![n, K]⟩ .f32) (W : FVec Ideal ⟨2, ![K, d]⟩ .f32) (b : FVec Ideal ⟨1, ![d]⟩ .f32)
    (h1 : (⟨1, ![d]⟩ : Shape).BroadcastsInDim ⟨2, ![1, d]⟩ ![1]) (h2 : (⟨2, ![1, d]⟩ : Shape).BroadcastsInDim ⟨2, ![n, d]⟩ ![0, 1])
    (h0 : (⟨0, ![]⟩ : Shape).BroadcastsInDim ⟨2, ![n, d]⟩ ![])
    (hsc : (⟨1, ![d]⟩ : Shape).ShapeCasts ⟨2, ![1, d]⟩) :
    (maximumf (addf (Host.dotGeneral D none X W) (broadcastInDim ⟨2, ![n, d]⟩ ![0, 1] h2 (broadcastInDim ⟨2, ![1, d]⟩ ![1] h1 b)))
        (broadcastInDim ⟨2, ![n, d]⟩ ![] h0 (constant (F := Ideal) ⟨0, ![]⟩ .f32 0x00000000#32)) : FVec Ideal ⟨2, ![n, d]⟩ .f32)
      = project X W (shapeCast ⟨2, ![1, d]⟩ b hsc) := by
  funext j
  obtain ⟨p, q, rfl⟩ : ∃ (p : Fin n) (q : Fin d), j = ix2 p q := ⟨j 0, j 1, eq_ix2 j⟩
  show max (Host.dotGeneral D none X W (ix2 p q) + broadcastInDim ⟨2, ![n, d]⟩ ![0, 1] h2 (broadcastInDim ⟨2, ![1, d]⟩ ![1] h1 b) (ix2 p q))
      (broadcastInDim ⟨2, ![n, d]⟩ ![] h0 (constant (F := Ideal) ⟨0, ![]⟩ .f32 0x00000000#32) (ix2 p q))
    = max (∑ k : Fin K, X (ix2 p k) * W (ix2 k q) + shapeCast ⟨2, ![1, d]⟩ b hsc (ix2 (0 : Fin 1) q)) (Ideal.ofBits .f32 0x00000000#32)
  rw [dotGeneral_at D P, bias_rows_at, scalar_at, shapeCast_a_1a_apply]
  rfl

/-- The relation update as the host spells it: the count vector clamped at one, made a column and repeated across
    the columns; the quotient; two contractions; the bias broadcast in two steps — the same function of the operands as
    the tiles', the count column being the count vector seen as a column and the bias row the bias vector as a row. -/
theorem combine_host {n d : Nat} (D : DotDims ⟨2, ![n, d]⟩ ⟨2, ![d, d]⟩ ⟨2, ![n, d]⟩) (P : Plain D)
    (S : FVec Ideal ⟨2, ![n, d]⟩ .f32) (C : FVec Ideal ⟨1, ![n]⟩ .f32) (H : FVec Ideal ⟨2, ![n, d]⟩ .f32)
    (Wl Wr : FVec Ideal ⟨2, ![d, d]⟩ .f32) (b : FVec Ideal ⟨1, ![d]⟩ .f32)
    (h1 : (⟨1, ![d]⟩ : Shape).BroadcastsInDim ⟨2, ![1, d]⟩ ![1]) (h2 : (⟨2, ![1, d]⟩ : Shape).BroadcastsInDim ⟨2, ![n, d]⟩ ![0, 1])
    (h0 : (⟨0, ![]⟩ : Shape).BroadcastsInDim ⟨1, ![n]⟩ ![])
    (h3 : (⟨1, ![n]⟩ : Shape).BroadcastsInDim ⟨2, ![n, 1]⟩ ![0]) (h4 : (⟨2, ![n, 1]⟩ : Shape).BroadcastsInDim ⟨2, ![n, d]⟩ ![0, 1])
    (hsb : (⟨1, ![d]⟩ : Shape).ShapeCasts ⟨2, ![1, d]⟩) (hsc : (⟨1, ![n]⟩ : Shape).ShapeCasts ⟨2, ![n, 1]⟩) :
    (addf (addf (Host.dotGeneral D none
          (Host.divf S (broadcastInDim ⟨2, ![n, d]⟩ ![0, 1] h4 (broadcastInDim ⟨2, ![n, 1]⟩ ![0] h3
            (maximumf C (broadcastInDim ⟨1, ![n]⟩ ![] h0 (constant (F := Ideal) ⟨0, ![]⟩ .f32 0x3F800000#32)))))) Wl)
        (broadcastInDim ⟨2, ![n, d]⟩ ![0, 1] h2 (broadcastInDim ⟨2, ![1, d]⟩ ![1] h1 b)))
      (Host.dotGeneral D none H Wr) : FVec Ideal ⟨2, ![n, d]⟩ .f32)
      = combine S (shapeCast ⟨2, ![n, 1]⟩ C hsc) H Wl Wr (shapeCast ⟨2, ![1, d]⟩ b hsb) := by
  funext j
  obtain ⟨p, q, rfl⟩ : ∃ (p : Fin n) (q : Fin d), j = ix2 p q := ⟨j 0, j 1, eq_ix2 j⟩
  have hC : ∀ k : Fin d, broadcastInDim ⟨2, ![n, d]⟩ ![0, 1] h4 (broadcastInDim ⟨2, ![n, 1]⟩ ![0] h3
        (maximumf C (broadcastInDim ⟨1, ![n]⟩ ![] h0 (constant (F := Ideal) ⟨0, ![]⟩ .f32 0x3F800000#32)))) (ix2 p k)
      = max (shapeCast ⟨2, ![n, 1]⟩ C hsc (ix2 p (0 : Fin 1))) (Ideal.ofBits .f32 0x3F800000#32) := fun k => by
    rw [broadcastInDim_apply ![0, 1] h4 _ (ix2 p k) (ix2 p (0 : Fin 1)) (fun a => by
      match a with
      | ⟨0, _⟩ =>
        show p.val = if n = 1 then 0 else p.val
        split
        · have := p.isLt; omega
        · rfl
      | ⟨1, _⟩ => rfl)]
    rw [broadcastInDim_apply ![0] h3 _ (ix2 p (0 : Fin 1)) (ix1 p) (fun a => by
      match a with
      | ⟨0, _⟩ =>
        show p.val = if n = 1 then 0 else p.val
        split
        · have := p.isLt; omega
        · rfl)]
    rw [Cert.LibKeepdims.shapeCast_a_a1_apply]
    show max (C (ix1 p)) (broadcastInDim ⟨1, ![n]⟩ ![] h0 (constant (F := Ideal) ⟨0, ![]⟩ .f32 0x3F800000#32) (ix1 p)) = _
    rw [broadcastInDim_apply ![] h0 _ (ix1 p) ix0 (fun a => a.elim0)]
    rfl
  show (Host.dotGeneral D none (Host.divf S (broadcastInDim ⟨2, ![n, d]⟩ ![0, 1] h4 (broadcastInDim ⟨2, ![n, 1]⟩ ![0] h3
            (maximumf C (broadcastInDim ⟨1, ![n]⟩ ![] h0 (constant (F := Ideal) ⟨0, ![]⟩ .f32 0x3F800000#32)))))) Wl (ix2 p q)
        + broadcastInDim ⟨2, ![n, d]⟩ ![0, 1] h2 (broadcastInDim ⟨2, ![1, d]⟩ ![1] h1 b) (ix2 p q))
      + Host.dotGeneral D none H Wr (ix2 p q)
    = (∑ k : Fin d, Ideal.div (S (ix2 p k)) (max (shapeCast ⟨2, ![n, 1]⟩ C hsc (ix2 p (0 : Fin 1))) (Ideal.ofBits .f32 0x3F800000#32)) * Wl (ix2 k q)
        + shapeCast ⟨2, ![1, d]⟩ b hsb (ix2 (0 : Fin 1) q)) + ∑ k : Fin d, H (ix2 p k) * Wr (ix2 k q)
  rw [dotGeneral_at D P, dotGeneral_at D P, bias_rows_at, shapeCast_a_1a_apply]
  refine congrArg₂ (· + ·) (congrArg₂ (· + ·) (Finset.sum_congr rfl fun k _ => ?_) rfl) rfl
  exact congrArg (fun z => Ideal.div (S (ix2 p k)) z * Wl (ix2 k q)) (hC k)

/-- The projection at an entry depends only on one row of the features, one column of the weights and one bias entry. -/
theorem project_congr_at {n K d N : Nat} (x : Mat n K) (w : Mat K d) (b : Mat 1 d) (X : Mat N K) (W : Mat K d) (B : Mat 1 d)
    (j : (⟨2, ![n, d]⟩ : Shape).Idx) (i : (⟨2, ![N, d]⟩ : Shape).Idx)
    (hx : ∀ k : Fin K, x (ix2 (j 0) k) = X (ix2 (i 0) k)) (hw : ∀ k : Fin K, w (ix2 k (j 1)) = W (ix2 k (i 1)))
    (hb : b (ix2 (0 : Fin 1) (j 1)) = B (ix2 (0 : Fin 1) (i 1))) :
    project x w b j = project X W B i := by
  unfold project
  rw [hb]
  exact congrArg (fun z => max (z + B (ix2 (0 : Fin 1) (i 1))) (Ideal.ofBits .f32 0x00000000#32))
    (Finset.sum_congr rfl fun k _ => by rw [hx k, hw k])

/-- The relation update at an entry depends only on one row of the sums, counts and features, one column of each
    weight matrix and one bias entry. -/
theorem combine_congr_at {n d N : Nat} (s : Mat n d) (c : Mat n 1) (h : Mat n d) (wl wr : Mat d d) (b : Mat 1 d)
    (S : Mat N d) (C : Mat N 1) (H : Mat N d) (Wl Wr : Mat d d) (B : Mat 1 d)
    (j : (⟨2, ![n, d]⟩ : Shape).Idx) (i : (⟨2, ![N, d]⟩ : Shape).Idx)
    (hs : ∀ k : Fin d, s (ix2 (j 0) k) = S (ix2 (i 0) k)) (hc : c (ix2 (j 0) (0 : Fin 1)) = C (ix2 (i 0) (0 : Fin 1)))
    (hh : ∀ k : Fin d, h (ix2 (j 0) k) = H (ix2 (i 0) k))
    (hwl : ∀ k : Fin d, wl (ix2 k (j 1)) = Wl (ix2 k (i 1))) (hwr : ∀ k : Fin d, wr (ix2 k (j 1)) = Wr (ix2 k (i 1)))
    (hb : b (ix2 (0 : Fin 1) (j 1)) = B (ix2 (0 : Fin 1) (i 1))) :
    combine s c h wl wr b j = combine S C H Wl Wr B i := by
  unfold combine
  rw [hb, hc]
  exact congrArg₂ (fun y z => (y + B (ix2 (0 : Fin 1) (i 1))) + z)
    (Finset.sum_congr rfl fun k _ => by rw [hs k, hwl k]) (Finset.sum_congr rfl fun k _ => by rw [hh k, hwr k])

end Cert.Sage

end
-- ==== Proof.Region0.lean ====
/-
  Region 0: the projection of 100000 rows, 4000 at a time.  Grid point t reads rows t·4000 … t·4000+3999 of the features, the
  whole weight matrix and the bias row, and writes the same rows of the result; the 25 tiles cover every row, so the
  result array is the projection of the whole arrays, whatever the region finds in them.
-/
import proofs.«167684_j89412629168563_2_alg».proof.Proof.Gen.KernelIdeal.Frame
import proofs.«167684_j89412629168563_2_alg».proof.Proof.Spec

set_option maxRecDepth 16384

noncomputable section

namespace Cert.Sage.Region0

open Idealize.ShloMosaic Idealize.ShloMosaic.TcCoe Idealize.ShloMosaic.ValueIdx Idealize.SL.Sem
open Idealize.ShloMosaic.Pipeline (Dat)
open Cert.KernelIdeal Cert.KernelIdeal.Gen Cert.Sage

variable (V : (c : Dev nD) → (b : Ref sig .tc) → Buf (Elt Ideal) ((c : Thread nD τ).loc b))

theorem origin : (![0, 0] : Fin 2 → Nat) = fun _ => 0 := funext fun a => by fin_cases a <;> rfl

/-- The contraction record of the tile's product is the plain rows × columns one. -/
theorem plain : Plain dot_S4000x64_S64x128_S4000x128_1_0_0_1_n_n where
  hr := rfl
  hs := rfl
  hl0 := fun j q => by
    unfold DotDims.lhsIdx
    rw [dif_neg (show ¬(0 : Fin S4000x64.rank) ∈ dot_S4000x64_S64x128_S4000x128_1_0_0_1_n_n.lhsBatch by decide), dif_pos (show (0 : Fin S4000x64.rank) ∈ dot_S4000x64_S64x128_S4000x128_1_0_0_1_n_n.lhsNonContracting by decide)]
    rfl
  hl1 := fun j q => dot_S4000x64_S64x128_S4000x128_1_0_0_1_n_n.lhsIdx_val_of_single rfl j q
  hr0 := fun j q => dot_S4000x64_S64x128_S4000x128_1_0_0_1_n_n.rhsIdx_val_of_single rfl j q
  hr1 := fun j q => by
    unfold DotDims.rhsIdx
    rw [dif_neg (show ¬(1 : Fin S64x128.rank) ∈ dot_S4000x64_S64x128_S4000x128_1_0_0_1_n_n.rhsBatch by decide), dif_pos (show (1 : Fin S64x128.rank) ∈ dot_S4000x64_S64x128_S4000x128_1_0_0_1_n_n.rhsNonContracting by decide)]
    rfl

/-- The tile's stored value is the projection of the three loaded blocks. -/
theorem tile_eq (x0 : Vec Ideal S4000x64 .f32) (x1 : Vec Ideal S64x128 .f32) (x2 : Vec Ideal S1x128 .f32) :
    k0_pay1 (F := Ideal) x0 x1 x2 = project x0 x1 x2 :=
  project_tile dot_S4000x64_S64x128_S4000x128_1_0_0_1_n_n plain x0 x1 x2 _ _ _

/-- The block index of every window at every grid point: the row windows move with the point, the others stay. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The feature block at point t holds rows t·4000 + p of the feature array. -/
theorem read_x (c : Dev nD) (t : Fin cfg0.N) (p : Fin 4000) (k : Fin 64) (i : Fin 100000) (hi : i.val = t.val * 4000 + p.val) :
    iblk0 V c 0 t (ix2 p k) = V c main_arg0 (ix2 i k) := by
  show V c main_arg0 (((cfg0.win 0).blk t).view.emb (ix2 p k)) = V c main_arg0 (ix2 i k)
  refine congrArg _ (funext fun a => Fin.ext ?_)
  obtain ⟨e0, e1, -⟩ := block_index t
  match a with
  | ⟨0, _⟩ => show win0_0.index t (0 : Fin 2) * 4000 + 1 * p.val = i.val; omega
  | ⟨1, _⟩ => show win0_0.index t (1 : Fin 2) * 64 + 1 * k.val = k.val; omega

/-- The weight block is the whole weight matrix. -/
theorem read_w (c : Dev nD) (t : Fin cfg0.N) (k : Fin 64) (q : Fin 128) :
    iblk0 V c 1 t (ix2 k q) = V c main_arg2 (ix2 k q) := by
  show V c main_arg2 (((cfg0.win 1).blk t).view.emb (ix2 k q)) = V c main_arg2 (ix2 k q)
  refine congrArg _ (funext fun a => Fin.ext ?_)
  obtain ⟨-, -, e2, e3, -⟩ := block_index t
  match a with
  | ⟨0, _⟩ => show win0_1.index t (0 : Fin 2) * 64 + 1 * k.val = k.val; omega
  | ⟨1, _⟩ => show win0_1.index t (1 : Fin 2) * 128 + 1 * q.val = q.val; omega

/-- The bias block is the whole bias row. -/
theorem read_b (c : Dev nD) (t : Fin cfg0.N) (u : Fin 1) (q : Fin 128) :
    iblk0 V c 2 t (ix2 u q) = V c main_v0 (ix2 u q) := by
  show V c main_v0 (((cfg0.win 2).blk t).view.emb (ix2 u q)) = V c main_v0 (ix2 u q)
  refine congrArg _ (funext fun a => Fin.ext ?_)
  obtain ⟨-, -, -, -, e4, e5, -⟩ := block_index t
  match a with
  | ⟨0, _⟩ => show win0_2.index t (0 : Fin 2) * 1 + 1 * u.val = u.val; omega
  | ⟨1, _⟩ => show win0_2.index t (1 : Fin 2) * 128 + 1 * q.val = q.val; omega

/-- What point t writes back is its block of the projection of the whole arrays. -/
theorem flushed_eq (c : Dev nD) (t : Fin cfg0.N) :
    (dat0 V c).flushed 3 t = ((cfg0.win 3).blk t).view.read (Elt Ideal) (project (V c main_arg0) (V c main_arg2) (V c main_v0)) := by
  show (cfg0.win 3).cut (grid0.coords t) ((dat0 V c).after 3 t) = _
  rw [after0_3]
  unfold out0_3
  rw [View.canon_unit_zero origin]
  simp only [View.ld_unit_zero (S := S4000x64) origin, View.ld_unit_zero (S := S64x128) origin, View.ld_unit_zero (S := S1x128) origin]
  rw [tile_eq]
  funext j
  obtain ⟨p, q, rfl⟩ : ∃ (p : Fin 4000) (q : Fin 128), j = ix2 p q := ⟨j 0, j 1, eq_ix2 j⟩
  obtain ⟨-, -, -, -, -, -, e6, e7⟩ := block_index t
  have ht : t.val < 25 := lt_of_lt_of_eq t.isLt N_0
  have hemb : ((cfg0.win 3).blk t).view.emb (ix2 p q) = ix2 (⟨t.val * 4000 + p.val, by omega⟩ : Fin 100000) q := by
    funext a; apply Fin.ext
    match a with
    | ⟨0, _⟩ => show win0_3.index t (0 : Fin 2) * 4000 + 1 * p.val = t.val * 4000 + p.val; omega
    | ⟨1, _⟩ => show win0_3.index t (1 : Fin 2) * 128 + 1 * q.val = q.val; omega
  show project (iblk0 V c 0 t) (iblk0 V c 1 t) (iblk0 V c 2 t) (ix2 p q)
    = project (V c main_arg0) (V c main_arg2) (V c main_v0) (((cfg0.win 3).blk t).view.emb (ix2 p q))
  rw [hemb]
  exact project_congr_at _ _ _ _ _ _ _ _ (fun k => read_x V c t p k _ rfl) (fun k => read_w V c t k q) (read_b V c t 0 q)

/-- An index of the result array lies in point t's block iff its row does. -/
theorem mem_blk (t : Fin cfg0.N) (i : S100000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v1).slice (win0_3.rect t)).set ↔ _
  rw [View.set_slice_whole, Rect.mem_set_unit]
  exact Iff.rfl

/-- Every row is in some tile: row r in tile r / 4000. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  refine ⟨⟨(i 0).val / 4000, by rw [show cfg0.N = 25 from N_0]; omega⟩, flush0_3 _, ?_⟩
  rw [mem_blk]
  obtain ⟨-, -, -, -, -, -, e6, e7⟩ := block_index ⟨(i 0).val / 4000, by rw [show cfg0.N = 25 from N_0]; omega⟩
  intro a
  match a with
  | ⟨0, _⟩ => show win0_3.index _ (0 : Fin 2) * 4000 ≤ (i 0).val ∧ (i 0).val < win0_3.index _ (0 : Fin 2) * 4000 + 4000; rw [e6]; show (i 0).val / 4000 * 4000 ≤ (i 0).val ∧ (i 0).val < (i 0).val / 4000 * 4000 + 4000; omega
  | ⟨1, _⟩ => show win0_3.index _ (1 : Fin 2) * 128 ≤ (i 1).val ∧ (i 1).val < win0_3.index _ (1 : Fin 2) * 128 + 128; rw [e7]; omega

/-- After the region the result array is the projection of the arrays the region found. -/
theorem result (c : Dev nD) : (dat0 V c).arrAt 3 cfg0.N = project (V c main_arg0) (V c main_arg2) (V c main_v0) :=
  (dat0 V c).arrAt_eq_of_cover 3 _ (fun t _ => flushed_eq V c t) (cover)

end Cert.Sage.Region0

end
-- ==== Proof.Region1.lean ====
/-
  Region 1: the projection of 20000 rows, 2000 at a time.  Grid point t reads rows t·2000 … t·2000+1999 of the features, the
  whole weight matrix and the bias row, and writes the same rows of the result; the 10 tiles cover every row, so the
  result array is the projection of the whole arrays, whatever the region finds in them.
-/
import proofs.«167684_j89412629168563_2_alg».proof.Proof.Gen.KernelIdeal.Frame
import proofs.«167684_j89412629168563_2_alg».proof.Proof.Spec

set_option maxRecDepth 16384

noncomputable section

namespace Cert.Sage.Region1

open Idealize.ShloMosaic Idealize.ShloMosaic.TcCoe Idealize.ShloMosaic.ValueIdx Idealize.SL.Sem
open Idealize.ShloMosaic.Pipeline (Dat)
open Cert.KernelIdeal Cert.KernelIdeal.Gen Cert.Sage

variable (V : (c : Dev nD) → (b : Ref sig .tc) → Buf (Elt Ideal) ((c : Thread nD τ).loc b))

theorem origin : (![0, 0] : Fin 2 → Nat) = fun _ => 0 := funext fun a => by fin_cases a <;> rfl

/-- The contraction record of the tile's product is the plain rows × columns one. -/
theorem plain : Plain dot_S2000x128_S128x128_S2000x128_1_0_0_1_n_n where
  hr := rfl
  hs := rfl
  hl0 := fun j q => by
    unfold DotDims.lhsIdx
    rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
    rfl
  hl1 := fun j q => dot_S2000x128_S128x128_S2000x128_1_0_0_1_n_n.lhsIdx_val_of_single rfl j q
  hr0 := fun j q => dot_S2000x128_S128x128_S2000x128_1_0_0_1_n_n.rhsIdx_val_of_single rfl j q
  hr1 := fun j q => by
    unfold DotDims.rhsIdx
    rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
    rfl

/-- The tile's stored value is the projection of the three loaded blocks. -/
theorem tile_eq (x0 : Vec Ideal S2000x128 .f32) (x1 : Vec Ideal S128x128 .f32) (x2 : Vec Ideal S1x128 .f32) :
    k1_pay1 (F := Ideal) x0 x1 x2 = project x0 x1 x2 :=
  project_tile dot_S2000x128_S128x128_S2000x128_1_0_0_1_n_n plain x0 x1 x2 _ _ _

/-- The block index of every window at every grid point: the row windows move with the point, the others stay. -/
theorem block_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The feature block at point t holds rows t·2000 + p of the feature array. -/
theorem read_x (c : Dev nD) (t : Fin cfg1.N) (p : Fin 2000) (k : Fin 128) (i : Fin 20000) (hi : i.val = t.val * 2000 + p.val) :
    iblk1 V c 0 t (ix2 p k) = V c main_arg1 (ix2 i k) := by
  show V c main_arg1 (((cfg1.win 0).blk t).view.emb (ix2 p k)) = V c main_arg1 (ix2 i k)
  refine congrArg _ (funext fun a => Fin.ext ?_)
  obtain ⟨e0, e1, -⟩ := block_index t
  match a with
  | ⟨0, _⟩ => show win1_0.index t (0 : Fin 2) * 2000 + 1 * p.val = i.val; omega
  | ⟨1, _⟩ => show win1_0.index t (1 : Fin 2) * 128 + 1 * k.val = k.val; omega

/-- The weight block is the whole weight matrix. -/
theorem read_w (c : Dev nD) (t : Fin cfg1.N) (k : Fin 128) (q : Fin 128) :
    iblk1 V c 1 t (ix2 k q) = V c main_arg4 (ix2 k q) := by
  show V c main_arg4 (((cfg1.win 1).blk t).view.emb (ix2 k q)) = V c main_arg4 (ix2 k q)
  refine congrArg _ (funext fun a => Fin.ext ?_)
  obtain ⟨-, -, e2, e3, -⟩ := block_index t
  match a with
  | ⟨0, _⟩ => show win1_1.index t (0 : Fin 2) * 128 + 1 * k.val = k.val; omega
  | ⟨1, _⟩ => show win1_1.index t (1 : Fin 2) * 128 + 1 * q.val = q.val; omega

/-- The bias block is the whole bias row. -/
theorem read_b (c : Dev nD) (t : Fin cfg1.N) (u : Fin 1) (q : Fin 128) :
    iblk1 V c 2 t (ix2 u q) = V c main_v2 (ix2 u q) := by
  show V c main_v2 (((cfg1.win 2).blk t).view.emb (ix2 u q)) = V c main_v2 (ix2 u q)
  refine congrArg _ (funext fun a => Fin.ext ?_)
  obtain ⟨-, -, -, -, e4, e5, -⟩ := block_index t
  match a with
  | ⟨0, _⟩ => show win1_2.index t (0 : Fin 2) * 1 + 1 * u.val = u.val; omega
  | ⟨1, _⟩ => show win1_2.index t (1 : Fin 2) * 128 + 1 * q.val = q.val; omega

/-- What point t writes back is its block of the projection of the whole arrays. -/
theorem flushed_eq (c : Dev nD) (t : Fin cfg1.N) :
    (dat1 V c).flushed 3 t = ((cfg1.win 3).blk t).view.read (Elt Ideal) (project (V c main_arg1) (V c main_arg4) (V c main_v2)) := by
  show (cfg1.win 3).cut (grid1.coords t) ((dat1 V c).after 3 t) = _
  rw [after1_3]
  unfold out1_3
  rw [View.canon_unit_zero origin]
  simp only [View.ld_unit_zero (S := S2000x128) origin, View.ld_unit_zero (S := S128x128) origin, View.ld_unit_zero (S := S1x128) origin]
  rw [tile_eq]
  funext j
  obtain ⟨p, q, rfl⟩ : ∃ (p : Fin 2000) (q : Fin 128), j = ix2 p q := ⟨j 0, j 1, eq_ix2 j⟩
  obtain ⟨-, -, -, -, -, -, e6, e7⟩ := block_index t
  have ht : t.val < 10 := lt_of_lt_of_eq t.isLt N_1
  have hemb : ((cfg1.win 3).blk t).view.emb (ix2 p q) = ix2 (⟨t.val * 2000 + p.val, by omega⟩ : Fin 20000) q := by
    funext a; apply Fin.ext
    match a with
    | ⟨0, _⟩ => show win1_3.index t (0 : Fin 2) * 2000 + 1 * p.val = t.val * 2000 + p.val; omega
    | ⟨1, _⟩ => show win1_3.index t (1 : Fin 2) * 128 + 1 * q.val = q.val; omega
  show project (iblk1 V c 0 t) (iblk1 V c 1 t) (iblk1 V c 2 t) (ix2 p q)
    = project (V c main_arg1) (V c main_arg4) (V c main_v2) (((cfg1.win 3).blk t).view.emb (ix2 p q))
  rw [hemb]
  exact project_congr_at _ _ _ _ _ _ _ _ (fun k => read_x V c t p k _ rfl) (fun k => read_w V c t k q) (read_b V c t 0 q)

/-- An index of the result array lies in point t's block iff its row does. -/
theorem mem_blk (t : Fin cfg1.N) (i : S20000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v3).slice (win1_3.rect t)).set ↔ _
  rw [View.set_slice_whole, Rect.mem_set_unit]
  exact Iff.rfl

/-- Every row is in some tile: row r in tile r / 2000. -/
theorem cover (i : S20000x128.Idx) : ∃ t : Fin cfg1.N, (cfg1.win 3).flush t = true ∧ i ∈ ((cfg1.win 3).blk t).view.set := by
  have hi0 : (i 0).val < 20000 := (i 0).isLt
  have hi1 : (i 1).val < 128 := (i 1).isLt
  refine ⟨⟨(i 0).val / 2000, by rw [show cfg1.N = 10 from N_1]; omega⟩, flush1_3 _, ?_⟩
  rw [mem_blk]
  obtain ⟨-, -, -, -, -, -, e6, e7⟩ := block_index ⟨(i 0).val / 2000, by rw [show cfg1.N = 10 from N_1]; omega⟩
  intro a
  match a with
  | ⟨0, _⟩ => show win1_3.index _ (0 : Fin 2) * 2000 ≤ (i 0).val ∧ (i 0).val < win1_3.index _ (0 : Fin 2) * 2000 + 2000; rw [e6]; show (i 0).val / 2000 * 2000 ≤ (i 0).val ∧ (i 0).val < (i 0).val / 2000 * 2000 + 2000; omega
  | ⟨1, _⟩ => show win1_3.index _ (1 : Fin 2) * 128 ≤ (i 1).val ∧ (i 1).val < win1_3.index _ (1 : Fin 2) * 128 + 128; rw [e7]; omega

/-- After the region the result array is the projection of the arrays the region found. -/
theorem result (c : Dev nD) : (dat1 V c).arrAt 3 cfg1.N = project (V c main_arg1) (V c main_arg4) (V c main_v2) :=
  (dat1 V c).arrAt_eq_of_cover 3 _ (fun t _ => flushed_eq V c t) (cover)

end Cert.Sage.Region1

end
-- ==== Proof.Region2.lean ====
/-
  Region 2: the relation update of 20000 rows, 2000 at a time.  Grid point t reads rows t·2000 … t·2000+1999 of the neighbour
  sums, of the neighbour counts and of the node's own features, both weight matrices and the bias row whole, and writes
  the same rows of the result; the 10 tiles cover every row, so the result array is the relation update of the whole
  arrays, whatever the region finds in them.
-/
import proofs.«167684_j89412629168563_2_alg».proof.Proof.Gen.KernelIdeal.Frame
import proofs.«167684_j89412629168563_2_alg».proof.Proof.Spec

set_option maxRecDepth 16384

noncomputable section

namespace Cert.Sage.Region2

open Idealize.ShloMosaic Idealize.ShloMosaic.TcCoe Idealize.ShloMosaic.ValueIdx Idealize.SL.Sem
open Idealize.ShloMosaic.Pipeline (Dat)
open Cert.KernelIdeal Cert.KernelIdeal.Gen Cert.Sage

variable (V : (c : Dev nD) → (b : Ref sig .tc) → Buf (Elt Ideal) ((c : Thread nD τ).loc b))

theorem origin : (![0, 0] : Fin 2 → Nat) = fun _ => 0 := funext fun a => by fin_cases a <;> rfl

/-- The contraction record of the tile's two products is the plain rows × columns one. -/
theorem plain : Plain dot_S2000x128_S128x128_S2000x128_1_0_0_1_n_n where
  hr := rfl
  hs := rfl
  hl0 := fun j q => by
    unfold DotDims.lhsIdx
    rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
    rfl
  hl1 := fun j q => dot_S2000x128_S128x128_S2000x128_1_0_0_1_n_n.lhsIdx_val_of_single rfl j q
  hr0 := fun j q => dot_S2000x128_S128x128_S2000x128_1_0_0_1_n_n.rhsIdx_val_of_single rfl j q
  hr1 := fun j q => by
    unfold DotDims.rhsIdx
    rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
    rfl

/-- The tile's stored value is the relation update of the six loaded blocks. -/
theorem tile_eq (x0 : Vec Ideal S2000x128 .f32) (x1 : Vec Ideal S2000x1 .f32) (x2 : Vec Ideal S2000x128 .bf16)
    (x3 : Vec Ideal S128x128 .f32) (x4 : Vec Ideal S128x128 .f32) (x5 : Vec Ideal S1x128 .f32) :
    k2_pay1 (F := Ideal) x0 x1 x2 x3 x4 x5 = combine x0 x1 x2 x3 x4 x5 :=
  combine_tile dot_S2000x128_S128x128_S2000x128_1_0_0_1_n_n plain x0 x1 x2 x3 x4 x5 _ _ _ _ _ _

/-- The block index of every window at every grid point: the row windows move with the point, the others stay. -/
theorem block_index : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The block of neighbour sums at point t holds rows t·2000 + p of the sums. -/
theorem read_s (c : Dev nD) (t : Fin cfg2.N) (p : Fin 2000) (k : Fin 128) (i : Fin 20000) (hi : i.val = t.val * 2000 + p.val) :
    iblk2 V c 0 t (ix2 p k) = V c main_v14 (ix2 i k) := by
  show V c main_v14 (((cfg2.win 0).blk t).view.emb (ix2 p k)) = V c main_v14 (ix2 i k)
  refine congrArg _ (funext fun a => Fin.ext ?_)
  obtain ⟨e0, e1, -⟩ := block_index t
  match a with
  | ⟨0, _⟩ => show win2_0.index t (0 : Fin 2) * 2000 + 1 * p.val = i.val; omega
  | ⟨1, _⟩ => show win2_0.index t (1 : Fin 2) * 128 + 1 * k.val = k.val; omega

/-- The block of counts at point t holds rows t·2000 + p of the count column. -/
theorem read_c (c : Dev nD) (t : Fin cfg2.N) (p : Fin 2000) (u : Fin 1) (i : Fin 20000) (hi : i.val = t.val * 2000 + p.val) :
    iblk2 V c 1 t (ix2 p u) = V c main_v19 (ix2 i u) := by
  show V c main_v19 (((cfg2.win 1).blk t).view.emb (ix2 p u)) = V c main_v19 (ix2 i u)
  refine congrArg _ (funext fun a => Fin.ext ?_)
  obtain ⟨-, -, e2, e3, -⟩ := block_index t
  match a with
  | ⟨0, _⟩ => show win2_1.index t (0 : Fin 2) * 2000 + 1 * p.val = i.val; omega
  | ⟨1, _⟩ => show win2_1.index t (1 : Fin 2) * 1 + 1 * u.val = u.val; omega

/-- The block of own features at point t holds rows t·2000 + p of the features. -/
theorem read_h (c : Dev nD) (t : Fin cfg2.N) (p : Fin 2000) (k : Fin 128) (i : Fin 20000) (hi : i.val = t.val * 2000 + p.val) :
    iblk2 V c 2 t (ix2 p k) = V c main_v3 (ix2 i k) := by
  show V c main_v3 (((cfg2.win 2).blk t).view.emb (ix2 p k)) = V c main_v3 (ix2 i k)
  refine congrArg _ (funext fun a => Fin.ext ?_)
  obtain ⟨-, -, -, -, e4, e5, -⟩ := block_index t
  match a with
  | ⟨0, _⟩ => show win2_2.index t (0 : Fin 2) * 2000 + 1 * p.val = i.val; omega
  | ⟨1, _⟩ => show win2_2.index t (1 : Fin 2) * 128 + 1 * k.val = k.val; omega

/-- The left weight block is the whole matrix. -/
theorem read_wl (c : Dev nD) (t : Fin cfg2.N) (k : Fin 128) (q : Fin 128) :
    iblk2 V c 3 t (ix2 k q) = V c main_arg6 (ix2 k q) := by
  show V c main_arg6 (((cfg2.win 3).blk t).view.emb (ix2 k q)) = V c main_arg6 (ix2 k q)
  refine congrArg _ (funext fun a => Fin.ext ?_)
  obtain ⟨-, -, -, -, -, -, e6, e7, -⟩ := block_index t
  match a with
  | ⟨0, _⟩ => show win2_3.index t (0 : Fin 2) * 128 + 1 * k.val = k.val; omega
  | ⟨1, _⟩ => show win2_3.index t (1 : Fin 2) * 128 + 1 * q.val = q.val; omega

/-- The right weight block is the whole matrix. -/
theorem read_wr (c : Dev nD) (t : Fin cfg2.N) (k : Fin 128) (q : Fin 128) :
    iblk2 V c 4 t (ix2 k q) = V c main_arg8 (ix2 k q) := by
  show V c main_arg8 (((cfg2.win 4).blk t).view.emb (ix2 k q)) = V c main_arg8 (ix2 k q)
  refine congrArg _ (funext fun a => Fin.ext ?_)
  obtain ⟨-, -, -, -, -, -, -, -, e8, e9, -⟩ := block_index t
  match a with
  | ⟨0, _⟩ => show win2_4.index t (0 : Fin 2) * 128 + 1 * k.val = k.val; omega
  | ⟨1, _⟩ => show win2_4.index t (1 : Fin 2) * 128 + 1 * q.val = q.val; omega

/-- The bias block is the whole bias row. -/
theorem read_b (c : Dev nD) (t : Fin cfg2.N) (u : Fin 1) (q : Fin 128) :
    iblk2 V c 5 t (ix2 u q) = V c main_v36 (ix2 u q) := by
  show V c main_v36 (((cfg2.win 5).blk t).view.emb (ix2 u q)) = V c main_v36 (ix2 u q)
  refine congrArg _ (funext fun a => Fin.ext ?_)
  obtain ⟨-, -, -, -, -, -, -, -, -, -, e10, e11, -⟩ := block_index t
  match a with
  | ⟨0, _⟩ => show win2_5.index t (0 : Fin 2) * 1 + 1 * u.val = u.val; omega
  | ⟨1, _⟩ => show win2_5.index t (1 : Fin 2) * 128 + 1 * q.val = q.val; omega

/-- What point t writes back is its block of the relation update of the whole arrays. -/
theorem flushed_eq (c : Dev nD) (t : Fin cfg2.N) :
    (dat2 V c).flushed 6 t = ((cfg2.win 6).blk t).view.read (Elt Ideal)
      (combine (V c main_v14) (V c main_v19) (V c main_v3) (V c main_arg6) (V c main_arg8) (V c main_v36)) := by
  show (cfg2.win 6).cut (grid2.coords t) ((dat2 V c).after 6 t) = _
  rw [after2_6]
  unfold out2_6
  rw [View.canon_unit_zero origin]
  simp only [View.ld_unit_zero (S := S2000x128) origin, View.ld_unit_zero (S := S2000x1) origin, View.ld_unit_zero (S := S128x128) origin, View.ld_unit_zero (S := S1x128) origin]
  rw [tile_eq]
  funext j
  obtain ⟨p, q, rfl⟩ : ∃ (p : Fin 2000) (q : Fin 128), j = ix2 p q := ⟨j 0, j 1, eq_ix2 j⟩
  obtain ⟨-, -, -, -, -, -, -, -, -, -, -, -, e12, e13⟩ := block_index t
  have ht : t.val < 10 := lt_of_lt_of_eq t.isLt N_2
  have hemb : ((cfg2.win 6).blk t).view.emb (ix2 p q) = ix2 (⟨t.val * 2000 + p.val, by omega⟩ : Fin 20000) q := by
    funext a; apply Fin.ext
    match a with
    | ⟨0, _⟩ => show win2_6.index t (0 : Fin 2) * 2000 + 1 * p.val = t.val * 2000 + p.val; omega
    | ⟨1, _⟩ => show win2_6.index t (1 : Fin 2) * 128 + 1 * q.val = q.val; omega
  show combine (iblk2 V c 0 t) (iblk2 V c 1 t) (iblk2 V c 2 t) (iblk2 V c 3 t) (iblk2 V c 4 t) (iblk2 V c 5 t) (ix2 p q)
    = combine (V c main_v14) (V c main_v19) (V c main_v3) (V c main_arg6) (V c main_arg8) (V c main_v36) (((cfg2.win 6).blk t).view.emb (ix2 p q))
  rw [hemb]
  exact combine_congr_at _ _ _ _ _ _ _ _ _ _ _ _ _ _ (fun k => read_s V c t p k _ rfl) (read_c V c t p 0 _ rfl) (fun k => read_h V c t p k _ rfl)
    (fun k => read_wl V c t k q) (fun k => read_wr V c t k q) (read_b V c t 0 q)

/-- An index of the result array lies in point t's block iff its row does. -/
theorem mem_blk (t : Fin cfg2.N) (i : S20000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v37).slice (win2_6.rect t)).set ↔ _
  rw [View.set_slice_whole, Rect.mem_set_unit]
  exact Iff.rfl

/-- Every row is in some tile: row r in tile r / 2000. -/
theorem cover (i : S20000x128.Idx) : ∃ t : Fin cfg2.N, (cfg2.win 6).flush t = true ∧ i ∈ ((cfg2.win 6).blk t).view.set := by
  have hi0 : (i 0).val < 20000 := (i 0).isLt
  have hi1 : (i 1).val < 128 := (i 1).isLt
  refine ⟨⟨(i 0).val / 2000, by rw [show cfg2.N = 10 from N_2]; omega⟩, flush2_6 _, ?_⟩
  rw [mem_blk]
  obtain ⟨-, -, -, -, -, -, -, -, -, -, -, -, e12, e13⟩ := block_index ⟨(i 0).val / 2000, by rw [show cfg2.N = 10 from N_2]; omega⟩
  intro a
  match a with
  | ⟨0, _⟩ => show win2_6.index _ (0 : Fin 2) * 2000 ≤ (i 0).val ∧ (i 0).val < win2_6.index _ (0 : Fin 2) * 2000 + 2000; rw [e12]; show (i 0).val / 2000 * 2000 ≤ (i 0).val ∧ (i 0).val < (i 0).val / 2000 * 2000 + 2000; omega
  | ⟨1, _⟩ => show win2_6.index _ (1 : Fin 2) * 128 ≤ (i 1).val ∧ (i 1).val < win2_6.index _ (1 : Fin 2) * 128 + 128; rw [e13]; omega

/-- After the region the result array is the relation update of the arrays the region found. -/
theorem result (c : Dev nD) : (dat2 V c).arrAt 6 cfg2.N
    = combine (V c main_v14) (V c main_v19) (V c main_v3) (V c main_arg6) (V c main_arg8) (V c main_v36) :=
  (dat2 V c).arrAt_eq_of_cover 6 _ (fun t _ => flushed_eq V c t) (cover)

end Cert.Sage.Region2

end
-- ==== Proof.Region3.lean ====
/-
  Region 3: the relation update of 100000 rows, 4000 at a time.  Grid point t reads rows t·4000 … t·4000+3999 of the neighbour
  sums, of the neighbour counts and of the node's own features, both weight matrices and the bias row whole, and writes
  the same rows of the result; the 25 tiles cover every row, so the result array is the relation update of the whole
  arrays, whatever the region finds in them.
-/
import proofs.«167684_j89412629168563_2_alg».proof.Proof.Gen.KernelIdeal.Frame
import proofs.«167684_j89412629168563_2_alg».proof.Proof.Spec

set_option maxRecDepth 16384

noncomputable section

namespace Cert.Sage.Region3

open Idealize.ShloMosaic Idealize.ShloMosaic.TcCoe Idealize.ShloMosaic.ValueIdx Idealize.SL.Sem
open Idealize.ShloMosaic.Pipeline (Dat)
open Cert.KernelIdeal Cert.KernelIdeal.Gen Cert.Sage

variable (V : (c : Dev nD) → (b : Ref sig .tc) → Buf (Elt Ideal) ((c : Thread nD τ).loc b))

theorem origin : (![0, 0] : Fin 2 → Nat) = fun _ => 0 := funext fun a => by fin_cases a <;> rfl

/-- The contraction record of the tile's two products is the plain rows × columns one. -/
theorem plain : Plain dot_S4000x128_S128x128_S4000x128_1_0_0_1_n_n where
  hr := rfl
  hs := rfl
  hl0 := fun j q => by
    unfold DotDims.lhsIdx
    rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
    rfl
  hl1 := fun j q => dot_S4000x128_S128x128_S4000x128_1_0_0_1_n_n.lhsIdx_val_of_single rfl j q
  hr0 := fun j q => dot_S4000x128_S128x128_S4000x128_1_0_0_1_n_n.rhsIdx_val_of_single rfl j q
  hr1 := fun j q => by
    unfold DotDims.rhsIdx
    rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
    rfl

/-- The tile's stored value is the relation update of the six loaded blocks. -/
theorem tile_eq (x0 : Vec Ideal S4000x128 .f32) (x1 : Vec Ideal S4000x1 .f32) (x2 : Vec Ideal S4000x128 .bf16)
    (x3 : Vec Ideal S128x128 .f32) (x4 : Vec Ideal S128x128 .f32) (x5 : Vec Ideal S1x128 .f32) :
    k3_pay1 (F := Ideal) x0 x1 x2 x3 x4 x5 = combine x0 x1 x2 x3 x4 x5 :=
  combine_tile dot_S4000x128_S128x128_S4000x128_1_0_0_1_n_n plain x0 x1 x2 x3 x4 x5 _ _ _ _ _ _

/-- The block index of every window at every grid point: the row windows move with the point, the others stay. -/
theorem block_index : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- The block of neighbour sums at point t holds rows t·4000 + p of the sums. -/
theorem read_s (c : Dev nD) (t : Fin cfg3.N) (p : Fin 4000) (k : Fin 128) (i : Fin 100000) (hi : i.val = t.val * 4000 + p.val) :
    iblk3 V c 0 t (ix2 p k) = V c main_v30 (ix2 i k) := by
  show V c main_v30 (((cfg3.win 0).blk t).view.emb (ix2 p k)) = V c main_v30 (ix2 i k)
  refine congrArg _ (funext fun a => Fin.ext ?_)
  obtain ⟨e0, e1, -⟩ := block_index t
  match a with
  | ⟨0, _⟩ => show win3_0.index t (0 : Fin 2) * 4000 + 1 * p.val = i.val; omega
  | ⟨1, _⟩ => show win3_0.index t (1 : Fin 2) * 128 + 1 * k.val = k.val; omega

/-- The block of counts at point t holds rows t·4000 + p of the count column. -/
theorem read_c (c : Dev nD) (t : Fin cfg3.N) (p : Fin 4000) (u : Fin 1) (i : Fin 100000) (hi : i.val = t.val * 4000 + p.val) :
    iblk3 V c 1 t (ix2 p u) = V c main_v35 (ix2 i u) := by
  show V c main_v35 (((cfg3.win 1).blk t).view.emb (ix2 p u)) = V c main_v35 (ix2 i u)
  refine congrArg _ (funext fun a => Fin.ext ?_)
  obtain ⟨-, -, e2, e3, -⟩ := block_index t
  match a with
  | ⟨0, _⟩ => show win3_1.index t (0 : Fin 2) * 4000 + 1 * p.val = i.val; omega
  | ⟨1, _⟩ => show win3_1.index t (1 : Fin 2) * 1 + 1 * u.val = u.val; omega

/-- The block of own features at point t holds rows t·4000 + p of the features. -/
theorem read_h (c : Dev nD) (t : Fin cfg3.N) (p : Fin 4000) (k : Fin 128) (i : Fin 100000) (hi : i.val = t.val * 4000 + p.val) :
    iblk3 V c 2 t (ix2 p k) = V c main_v1 (ix2 i k) := by
  show V c main_v1 (((cfg3.win 2).blk t).view.emb (ix2 p k)) = V c main_v1 (ix2 i k)
  refine congrArg _ (funext fun a => Fin.ext ?_)
  obtain ⟨-, -, -, -, e4, e5, -⟩ := block_index t
  match a with
  | ⟨0, _⟩ => show win3_2.index t (0 : Fin 2) * 4000 + 1 * p.val = i.val; omega
  | ⟨1, _⟩ => show win3_2.index t (1 : Fin 2) * 128 + 1 * k.val = k.val; omega

/-- The left weight block is the whole matrix. -/
theorem read_wl (c : Dev nD) (t : Fin cfg3.N) (k : Fin 128) (q : Fin 128) :
    iblk3 V c 3 t (ix2 k q) = V c main_arg9 (ix2 k q) := by
  show V c main_arg9 (((cfg3.win 3).blk t).view.emb (ix2 k q)) = V c main_arg9 (ix2 k q)
  refine congrArg _ (funext fun a => Fin.ext ?_)
  obtain ⟨-, -, -, -, -, -, e6, e7, -⟩ := block_index t
  match a with
  | ⟨0, _⟩ => show win3_3.index t (0 : Fin 2) * 128 + 1 * k.val = k.val; omega
  | ⟨1, _⟩ => show win3_3.index t (1 : Fin 2) * 128 + 1 * q.val = q.val; omega

/-- The right weight block is the whole matrix. -/
theorem read_wr (c : Dev nD) (t : Fin cfg3.N) (k : Fin 128) (q : Fin 128) :
    iblk3 V c 4 t (ix2 k q) = V c main_arg11 (ix2 k q) := by
  show V c main_arg11 (((cfg3.win 4).blk t).view.emb (ix2 k q)) = V c main_arg11 (ix2 k q)
  refine congrArg _ (funext fun a => Fin.ext ?_)
  obtain ⟨-, -, -, -, -, -, -, -, e8, e9, -⟩ := block_index t
  match a with
  | ⟨0, _⟩ => show win3_4.index t (0 : Fin 2) * 128 + 1 * k.val = k.val; omega
  | ⟨1, _⟩ => show win3_4.index t (1 : Fin 2) * 128 + 1 * q.val = q.val; omega

/-- The bias block is the whole bias row. -/
theorem read_b (c : Dev nD) (t : Fin cfg3.N) (u : Fin 1) (q : Fin 128) :
    iblk3 V c 5 t (ix2 u q) = V c main_v38 (ix2 u q) := by
  show V c main_v38 (((cfg3.win 5).blk t).view.emb (ix2 u q)) = V c main_v38 (ix2 u q)
  refine congrArg _ (funext fun a => Fin.ext ?_)
  obtain ⟨-, -, -, -, -, -, -, -, -, -, e10, e11, -⟩ := block_index t
  match a with
  | ⟨0, _⟩ => show win3_5.index t (0 : Fin 2) * 1 + 1 * u.val = u.val; omega
  | ⟨1, _⟩ => show win3_5.index t (1 : Fin 2) * 128 + 1 * q.val = q.val; omega

/-- What point t writes back is its block of the relation update of the whole arrays. -/
theorem flushed_eq (c : Dev nD) (t : Fin cfg3.N) :
    (dat3 V c).flushed 6 t = ((cfg3.win 6).blk t).view.read (Elt Ideal)
      (combine (V c main_v30) (V c main_v35) (V c main_v1) (V c main_arg9) (V c main_arg11) (V c main_v38)) := by
  show (cfg3.win 6).cut (grid3.coords t) ((dat3 V c).after 6 t) = _
  rw [after3_6]
  unfold out3_6
  rw [View.canon_unit_zero origin]
  simp only [View.ld_unit_zero (S := S4000x128) origin, View.ld_unit_zero (S := S4000x1) origin, View.ld_unit_zero (S := S128x128) origin, View.ld_unit_zero (S := S1x128) origin]
  rw [tile_eq]
  funext j
  obtain ⟨p, q, rfl⟩ : ∃ (p : Fin 4000) (q : Fin 128), j = ix2 p q := ⟨j 0, j 1, eq_ix2 j⟩
  obtain ⟨-, -, -, -, -, -, -, -, -, -, -, -, e12, e13⟩ := block_index t
  have ht : t.val < 25 := lt_of_lt_of_eq t.isLt N_3
  have hemb : ((cfg3.win 6).blk t).view.emb (ix2 p q) = ix2 (⟨t.val * 4000 + p.val, by omega⟩ : Fin 100000) q := by
    funext a; apply Fin.ext
    match a with
    | ⟨0, _⟩ => show win3_6.index t (0 : Fin 2) * 4000 + 1 * p.val = t.val * 4000 + p.val; omega
    | ⟨1, _⟩ => show win3_6.index t (1 : Fin 2) * 128 + 1 * q.val = q.val; omega
  show combine (iblk3 V c 0 t) (iblk3 V c 1 t) (iblk3 V c 2 t) (iblk3 V c 3 t) (iblk3 V c 4 t) (iblk3 V c 5 t) (ix2 p q)
    = combine (V c main_v30) (V c main_v35) (V c main_v1) (V c main_arg9) (V c main_arg11) (V c main_v38) (((cfg3.win 6).blk t).view.emb (ix2 p q))
  rw [hemb]
  exact combine_congr_at _ _ _ _ _ _ _ _ _ _ _ _ _ _ (fun k => read_s V c t p k _ rfl) (read_c V c t p 0 _ rfl) (fun k => read_h V c t p k _ rfl)
    (fun k => read_wl V c t k q) (fun k => read_wr V c t k q) (read_b V c t 0 q)

/-- An index of the result array lies in point t's block iff its row does. -/
theorem mem_blk (t : Fin cfg3.N) (i : S100000x128.Idx) :
    i ∈ ((cfg3.win 6).blk t).view.set ↔ ∀ a : Fin 2, win3_6.index t a * S4000x128.size a ≤ (i a).val ∧ (i a).val < win3_6.index t a * S4000x128.size a + S4000x128.size a := by
  show i ∈ ((View.whole main_v39).slice (win3_6.rect t)).set ↔ _
  rw [View.set_slice_whole, Rect.mem_set_unit]
  exact Iff.rfl

/-- Every row is in some tile: row r in tile r / 4000. -/
theorem cover (i : S100000x128.Idx) : ∃ t : Fin cfg3.N, (cfg3.win 6).flush t = true ∧ i ∈ ((cfg3.win 6).blk t).view.set := by
  have hi0 : (i 0).val < 100000 := (i 0).isLt
  have hi1 : (i 1).val < 128 := (i 1).isLt
  refine ⟨⟨(i 0).val / 4000, by rw [show cfg3.N = 25 from N_3]; omega⟩, flush3_6 _, ?_⟩
  rw [mem_blk]
  obtain ⟨-, -, -, -, -, -, -, -, -, -, -, -, e12, e13⟩ := block_index ⟨(i 0).val / 4000, by rw [show cfg3.N = 25 from N_3]; omega⟩
  intro a
  match a with
  | ⟨0, _⟩ => show win3_6.index _ (0 : Fin 2) * 4000 ≤ (i 0).val ∧ (i 0).val < win3_6.index _ (0 : Fin 2) * 4000 + 4000; rw [e12]; show (i 0).val / 4000 * 4000 ≤ (i 0).val ∧ (i 0).val < (i 0).val / 4000 * 4000 + 4000; omega
  | ⟨1, _⟩ => show win3_6.index _ (1 : Fin 2) * 128 ≤ (i 1).val ∧ (i 1).val < win3_6.index _ (1 : Fin 2) * 128 + 128; rw [e13]; omega

/-- After the region the result array is the relation update of the arrays the region found. -/
theorem result (c : Dev nD) : (dat3 V c).arrAt 6 cfg3.N
    = combine (V c main_v30) (V c main_v35) (V c main_v1) (V c main_arg9) (V c main_arg11) (V c main_v38) :=
  (dat3 V c).arrAt_eq_of_cover 6 _ (fun t _ => flushed_eq V c t) (cover)

end Cert.Sage.Region3

end
-- ==== Proof.Entry.lean ====
/-
  What each of the four regions finds in its arrays, read back through the program to the launch memory.

  The first two regions find the raw features, the projection weights, and the bias vector seen as one row; they leave
  the two projected feature arrays.  Between the second and the third region the host gathers, for every edge, the
  projected row of the edge's source and adds it into the row of the edge's destination, and counts the edges into
  every destination.  The last two regions find those sums and counts, the other node type's projected features, the
  relation weights, and the relation bias seen as one row.  No region and no host operation writes an argument array.
-/
import proofs.«167684_j89412629168563_2_alg».proof.Proof.Gen.KernelIdeal.Frame
import proofs.«167684_j89412629168563_2_alg».proof.Proof.Region0
import proofs.«167684_j89412629168563_2_alg».proof.Proof.Region1
import proofs.«167684_j89412629168563_2_alg».proof.Proof.Region2
import proofs.«167684_j89412629168563_2_alg».proof.Proof.Region3

set_option maxRecDepth 16384

noncomputable section

namespace Cert.Sage.Entry

open Idealize.ShloMosaic Idealize.ShloMosaic.TcCoe Idealize.ShloMosaic.ValueIdx Idealize.SL.Sem Idealize.ShloMosaic.StableHlo
open Cert.KernelIdeal Cert.KernelIdeal.Gen Cert.Sage

variable (m : (ℓ : Loc nD τ sig) → Buf (Elt Ideal) ℓ) (ρ : Dev nD → PrngReg)

/-! ## Region 0: the user projection -/

theorem r0_x (c : Dev nD) : V1 m ρ c main_arg0 = m ((c : Thread nD τ).loc main_arg0) := by
  show StableHlo.after hostOps0 (W0 m ρ c) (Proc.devRef .tc main_arg0) = _
  after_results

theorem r0_w (c : Dev nD) : V1 m ρ c main_arg2 = m ((c : Thread nD τ).loc main_arg2) := by
  show StableHlo.after hostOps0 (W0 m ρ c) (Proc.devRef .tc main_arg2) = _
  after_results

theorem r0_b (c : Dev nD) : V1 m ρ c main_v0
    = shapeCast S1x128 (m ((c : Thread nD τ).loc main_arg3) : S128.Idx → EReal) shapeCasts_S128_S1x128 := by
  show StableHlo.after hostOps0 (W0 m ρ c) (Proc.devRef .tc main_v0) = _
  after_results
  rfl

/-- The projected user features after region 0. -/
theorem users (c : Dev nD) : W2 m ρ c (Proc.devRef .tc main_v1)
    = project (m ((c : Thread nD τ).loc main_arg0)) (m ((c : Thread nD τ).loc main_arg2))
        (shapeCast S1x128 (m ((c : Thread nD τ).loc main_arg3) : S128.Idx → EReal) shapeCasts_S128_S1x128) := by
  refine (W2_arr m ρ c 3).trans ((Region0.result (V1 m ρ) c).trans ?_)
  rw [r0_x, r0_w, r0_b]

/-! ## Region 1: the game projection -/

/-- The game features reach region 1 as launched. -/
theorem at3_x (c : Dev nD) : W3 m ρ c (Proc.devRef .tc main_arg1) = m ((c : Thread nD τ).loc main_arg1) :=
  calc W3 m ρ c (Proc.devRef .tc main_arg1)
    _ = W2 m ρ c (Proc.devRef .tc main_arg1) := by show StableHlo.after hostOps1 (W2 m ρ c) (Proc.devRef .tc main_arg1) = _; after_results
    _ = W1 m ρ c (Proc.devRef .tc main_arg1) := W2_of_ne m ρ c main_arg1 (by decide)
    _ = m ((c : Thread nD τ).loc main_arg1) := by show StableHlo.after hostOps0 (W0 m ρ c) (Proc.devRef .tc main_arg1) = _; after_results

/-- The game projection weights reach region 1 as launched. -/
theorem at3_w (c : Dev nD) : W3 m ρ c (Proc.devRef .tc main_arg4) = m ((c : Thread nD τ).loc main_arg4) :=
  calc W3 m ρ c (Proc.devRef .tc main_arg4)
    _ = W2 m ρ c (Proc.devRef .tc main_arg4) := by show StableHlo.after hostOps1 (W2 m ρ c) (Proc.devRef .tc main_arg4) = _; after_results
    _ = W1 m ρ c (Proc.devRef .tc main_arg4) := W2_of_ne m ρ c main_arg4 (by decide)
    _ = m ((c : Thread nD τ).loc main_arg4) := by show StableHlo.after hostOps0 (W0 m ρ c) (Proc.devRef .tc main_arg4) = _; after_results

/-- The game projection bias is as launched after region 0. -/
theorem at2_b (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = m ((c : Thread nD τ).loc main_arg5) := by show StableHlo.after hostOps0 (W0 m ρ c) (Proc.devRef .tc main_arg5) = _; after_results

theorem r1_b (c : Dev nD) : V3 m ρ c main_v2
    = shapeCast S1x128 (m ((c : Thread nD τ).loc main_arg5) : S128.Idx → EReal) shapeCasts_S128_S1x128 := by
  show StableHlo.after hostOps1 (W2 m ρ c) (Proc.devRef .tc main_v2) = _
  after_results
  rw [at2_b]
  rfl

/-- The projected game features after region 1. -/
theorem games (c : Dev nD) : W4 m ρ c (Proc.devRef .tc main_v3)
    = project (m ((c : Thread nD τ).loc main_arg1)) (m ((c : Thread nD τ).loc main_arg4))
        (shapeCast S1x128 (m ((c : Thread nD τ).loc main_arg5) : S128.Idx → EReal) shapeCasts_S128_S1x128) := by
  refine (W4_arr m ρ c 3).trans ((Region1.result (V3 m ρ) c).trans ?_)
  rw [show V3 m ρ c main_arg1 = _ from at3_x m ρ c, show V3 m ρ c main_arg4 = _ from at3_w m ρ c, r1_b]

/-- The projected user features are still there after region 1. -/
theorem users4 (c : Dev nD) : W4 m ρ c (Proc.devRef .tc main_v1)
    = project (m ((c : Thread nD τ).loc main_arg0)) (m ((c : Thread nD τ).loc main_arg2))
        (shapeCast S1x128 (m ((c : Thread nD τ).loc main_arg3) : S128.Idx → EReal) shapeCasts_S128_S1x128) :=
  calc W4 m ρ c (Proc.devRef .tc main_v1)
    _ = W3 m ρ c (Proc.devRef .tc main_v1) := W4_of_ne m ρ c main_v1 (by decide)
    _ = W2 m ρ c (Proc.devRef .tc main_v1) := by show StableHlo.after hostOps1 (W2 m ρ c) (Proc.devRef .tc main_v1) = _; after_results
    _ = _ := users m ρ c

/-! ## The arguments the host stretch before region 2 reads -/

/-- Argument 6 is as launched after region 1. -/
theorem at4_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := by show StableHlo.after hostOps1 (W2 m ρ c) (Proc.devRef .tc main_arg6) = _; after_results
    _ = W1 m ρ c (Proc.devRef .tc main_arg6) := W2_of_ne m ρ c main_arg6 (by decide)
    _ = m ((c : Thread nD τ).loc main_arg6) := by show StableHlo.after hostOps0 (W0 m ρ c) (Proc.devRef .tc main_arg6) = _; after_results

/-- Argument 7 is as launched after region 1. -/
theorem at4_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := by show StableHlo.after hostOps1 (W2 m ρ c) (Proc.devRef .tc main_arg7) = _; after_results
    _ = W1 m ρ c (Proc.devRef .tc main_arg7) := W2_of_ne m ρ c main_arg7 (by decide)
    _ = m ((c : Thread nD τ).loc main_arg7) := by show StableHlo.after hostOps0 (W0 m ρ c) (Proc.devRef .tc main_arg7) = _; after_results

/-- Argument 8 is as launched after region 1. -/
theorem at4_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := by show StableHlo.after hostOps1 (W2 m ρ c) (Proc.devRef .tc main_arg8) = _; after_results
    _ = W1 m ρ c (Proc.devRef .tc main_arg8) := W2_of_ne m ρ c main_arg8 (by decide)
    _ = m ((c : Thread nD τ).loc main_arg8) := by show StableHlo.after hostOps0 (W0 m ρ c) (Proc.devRef .tc main_arg8) = _; after_results

/-- Argument 12 is as launched after region 1. -/
theorem at4_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := by show StableHlo.after hostOps1 (W2 m ρ c) (Proc.devRef .tc main_arg12) = _; after_results
    _ = W1 m ρ c (Proc.devRef .tc main_arg12) := W2_of_ne m ρ c main_arg12 (by decide)
    _ = m ((c : Thread nD τ).loc main_arg12) := by show StableHlo.after hostOps0 (W0 m ρ c) (Proc.devRef .tc main_arg12) = _; after_results

/-- Argument 13 is as launched after region 1. -/
theorem at4_arg13 (c : Dev nD) : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := by show StableHlo.after hostOps1 (W2 m ρ c) (Proc.devRef .tc main_arg13) = _; after_results
    _ = W1 m ρ c (Proc.devRef .tc main_arg13) := W2_of_ne m ρ c main_arg13 (by decide)
    _ = m ((c : Thread nD τ).loc main_arg13) := by show StableHlo.after hostOps0 (W0 m ρ c) (Proc.devRef .tc main_arg13) = _; after_results

/-- Argument 14 is as launched after region 1. -/
theorem at4_arg14 (c : Dev nD) : W4 m ρ c (Proc.devRef .tc main_arg14) = m ((c : Thread nD τ).loc main_arg14) :=
  calc W4 m ρ c (Proc.devRef .tc main_arg14)
    _ = W3 m ρ c (Proc.devRef .tc main_arg14) := W4_of_ne m ρ c main_arg14 (by decide)
    _ = W2 m ρ c (Proc.devRef .tc main_arg14) := by show StableHlo.after hostOps1 (W2 m ρ c) (Proc.devRef .tc main_arg14) = _; after_results
    _ = W1 m ρ c (Proc.devRef .tc main_arg14) := W2_of_ne m ρ c main_arg14 (by decide)
    _ = m ((c : Thread nD τ).loc main_arg14) := by show StableHlo.after hostOps0 (W0 m ρ c) (Proc.devRef .tc main_arg14) = _; after_results

/-- Argument 15 is as launched after region 1. -/
theorem at4_arg15 (c : Dev nD) : W4 m ρ c (Proc.devRef .tc main_arg15) = m ((c : Thread nD τ).loc main_arg15) :=
  calc W4 m ρ c (Proc.devRef .tc main_arg15)
    _ = W3 m ρ c (Proc.devRef .tc main_arg15) := W4_of_ne m ρ c main_arg15 (by decide)
    _ = W2 m ρ c (Proc.devRef .tc main_arg15) := by show StableHlo.after hostOps1 (W2 m ρ c) (Proc.devRef .tc main_arg15) = _; after_results
    _ = W1 m ρ c (Proc.devRef .tc main_arg15) := W2_of_ne m ρ c main_arg15 (by decide)
    _ = m ((c : Thread nD τ).loc main_arg15) := by show StableHlo.after hostOps0 (W0 m ρ c) (Proc.devRef .tc main_arg15) = _; after_results

/-! ## Region 2: the game relation update -/

theorem r2_h (c : Dev nD) : V5 m ρ c main_v3
    = project (m ((c : Thread nD τ).loc main_arg1)) (m ((c : Thread nD τ).loc main_arg4))
        (shapeCast S1x128 (m ((c : Thread nD τ).loc main_arg5) : S128.Idx → EReal) shapeCasts_S128_S1x128) := by
  refine Eq.trans ?_ (games m ρ c)
  show StableHlo.after hostOps2 (W4 m ρ c) (Proc.devRef .tc main_v3) = _
  after_results

theorem r2_wl (c : Dev nD) : V5 m ρ c main_arg6 = m ((c : Thread nD τ).loc main_arg6) := by
  refine Eq.trans ?_ (at4_arg6 m ρ c)
  show StableHlo.after hostOps2 (W4 m ρ c) (Proc.devRef .tc main_arg6) = _
  after_results

theorem r2_wr (c : Dev nD) : V5 m ρ c main_arg8 = m ((c : Thread nD τ).loc main_arg8) := by
  refine Eq.trans ?_ (at4_arg8 m ρ c)
  show StableHlo.after hostOps2 (W4 m ρ c) (Proc.devRef .tc main_arg8) = _
  after_results

theorem r2_b (c : Dev nD) : V5 m ρ c main_v36
    = shapeCast S1x128 (m ((c : Thread nD τ).loc main_arg7) : S128.Idx → EReal) shapeCasts_S128_S1x128 := by
  show StableHlo.after hostOps2 (W4 m ρ c) (Proc.devRef .tc main_v36) = _
  after_results
  rw [at4_arg7]
  rfl

/-- The game result is the relation update of what region 2 finds. -/
theorem game_result (c : Dev nD) : W8 m ρ c (Proc.devRef .tc main_v37)
    = combine (V5 m ρ c main_v14) (V5 m ρ c main_v19) (V5 m ρ c main_v3) (V5 m ρ c main_arg6) (V5 m ρ c main_arg8) (V5 m ρ c main_v36) :=
  calc W8 m ρ c (Proc.devRef .tc main_v37)
    _ = W7 m ρ c (Proc.devRef .tc main_v37) := W8_of_ne m ρ c main_v37 (by decide)
    _ = W6 m ρ c (Proc.devRef .tc main_v37) := by show StableHlo.after hostOps3 (W6 m ρ c) (Proc.devRef .tc main_v37) = _; after_results
    _ = _ := (W6_arr m ρ c 6).trans (Region2.result (V5 m ρ) c)

/-! ## Region 3: the user relation update -/

/-- Argument 9 is as launched after region 2. -/
theorem at6_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := by show StableHlo.after hostOps2 (W4 m ρ c) (Proc.devRef .tc main_arg9) = _; after_results
    _ = W3 m ρ c (Proc.devRef .tc main_arg9) := W4_of_ne m ρ c main_arg9 (by decide)
    _ = W2 m ρ c (Proc.devRef .tc main_arg9) := by show StableHlo.after hostOps1 (W2 m ρ c) (Proc.devRef .tc main_arg9) = _; after_results
    _ = W1 m ρ c (Proc.devRef .tc main_arg9) := W2_of_ne m ρ c main_arg9 (by decide)
    _ = m ((c : Thread nD τ).loc main_arg9) := by show StableHlo.after hostOps0 (W0 m ρ c) (Proc.devRef .tc main_arg9) = _; after_results

/-- Argument 10 is as launched after region 2. -/
theorem at6_arg10 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := by show StableHlo.after hostOps2 (W4 m ρ c) (Proc.devRef .tc main_arg10) = _; after_results
    _ = W3 m ρ c (Proc.devRef .tc main_arg10) := W4_of_ne m ρ c main_arg10 (by decide)
    _ = W2 m ρ c (Proc.devRef .tc main_arg10) := by show StableHlo.after hostOps1 (W2 m ρ c) (Proc.devRef .tc main_arg10) = _; after_results
    _ = W1 m ρ c (Proc.devRef .tc main_arg10) := W2_of_ne m ρ c main_arg10 (by decide)
    _ = m ((c : Thread nD τ).loc main_arg10) := by show StableHlo.after hostOps0 (W0 m ρ c) (Proc.devRef .tc main_arg10) = _; after_results

/-- Argument 11 is as launched after region 2. -/
theorem at6_arg11 (c : Dev nD) : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := by show StableHlo.after hostOps2 (W4 m ρ c) (Proc.devRef .tc main_arg11) = _; after_results
    _ = W3 m ρ c (Proc.devRef .tc main_arg11) := W4_of_ne m ρ c main_arg11 (by decide)
    _ = W2 m ρ c (Proc.devRef .tc main_arg11) := by show StableHlo.after hostOps1 (W2 m ρ c) (Proc.devRef .tc main_arg11) = _; after_results
    _ = W1 m ρ c (Proc.devRef .tc main_arg11) := W2_of_ne m ρ c main_arg11 (by decide)
    _ = m ((c : Thread nD τ).loc main_arg11) := by show StableHlo.after hostOps0 (W0 m ρ c) (Proc.devRef .tc main_arg11) = _; after_results

theorem r3_h (c : Dev nD) : V7 m ρ c main_v1
    = project (m ((c : Thread nD τ).loc main_arg0)) (m ((c : Thread nD τ).loc main_arg2))
        (shapeCast S1x128 (m ((c : Thread nD τ).loc main_arg3) : S128.Idx → EReal) shapeCasts_S128_S1x128) :=
  calc V7 m ρ c main_v1
    _ = W6 m ρ c (Proc.devRef .tc main_v1) := by show StableHlo.after hostOps3 (W6 m ρ c) (Proc.devRef .tc main_v1) = _; after_results
    _ = W5 m ρ c (Proc.devRef .tc main_v1) := W6_of_ne m ρ c main_v1 (by decide)
    _ = W4 m ρ c (Proc.devRef .tc main_v1) := by show StableHlo.after hostOps2 (W4 m ρ c) (Proc.devRef .tc main_v1) = _; after_results
    _ = _ := users4 m ρ c

theorem r3_wl (c : Dev nD) : V7 m ρ c main_arg9 = m ((c : Thread nD τ).loc main_arg9) := by
  refine Eq.trans ?_ (at6_arg9 m ρ c)
  show StableHlo.after hostOps3 (W6 m ρ c) (Proc.devRef .tc main_arg9) = _
  after_results

theorem r3_wr (c : Dev nD) : V7 m ρ c main_arg11 = m ((c : Thread nD τ).loc main_arg11) := by
  refine Eq.trans ?_ (at6_arg11 m ρ c)
  show StableHlo.after hostOps3 (W6 m ρ c) (Proc.devRef .tc main_arg11) = _
  after_results

theorem r3_b (c : Dev nD) : V7 m ρ c main_v38
    = shapeCast S1x128 (m ((c : Thread nD τ).loc main_arg10) : S128.Idx → EReal) shapeCasts_S128_S1x128 := by
  show StableHlo.after hostOps3 (W6 m ρ c) (Proc.devRef .tc main_v38) = _
  after_results
  rw [at6_arg10]
  rfl

/-- The neighbour sums and counts onto the users pass region 2 and the last host stretch untouched. -/
theorem r3_s (c : Dev nD) : V7 m ρ c main_v30 = V5 m ρ c main_v30 :=
  calc V7 m ρ c main_v30
    _ = W6 m ρ c (Proc.devRef .tc main_v30) := by show StableHlo.after hostOps3 (W6 m ρ c) (Proc.devRef .tc main_v30) = _; after_results
    _ = _ := W6_of_ne m ρ c main_v30 (by decide)

theorem r3_c (c : Dev nD) : V7 m ρ c main_v35 = V5 m ρ c main_v35 :=
  calc V7 m ρ c main_v35
    _ = W6 m ρ c (Proc.devRef .tc main_v35) := by show StableHlo.after hostOps3 (W6 m ρ c) (Proc.devRef .tc main_v35) = _; after_results
    _ = _ := W6_of_ne m ρ c main_v35 (by decide)

/-- The user result is the relation update of what region 3 finds. -/
theorem user_result (c : Dev nD) : W8 m ρ c (Proc.devRef .tc main_v39)
    = combine (V7 m ρ c main_v30) (V7 m ρ c main_v35) (V7 m ρ c main_v1) (V7 m ρ c main_arg9) (V7 m ρ c main_arg11) (V7 m ρ c main_v38) :=
  (W8_arr m ρ c 6).trans (Region3.result (V7 m ρ) c)

end Cert.Sage.Entry

end
-- ==== Proof.RefValue.lean ====
/-
  The reference program's stages as the layer's functions.  Its two projections are `project` of the raw features,
  the weights and the bias vector seen as one row; each of its two results is `combine` of the neighbour sums, the
  neighbour counts seen as a column, the other node type's projected features, the relation weights and the relation
  bias seen as one row.  The gather and the scatter-additions in between are left as the stages they are.
-/
import proofs.«167684_j89412629168563_2_alg».proof.Proof.Gen.ReferenceIdeal.Read
import proofs.«167684_j89412629168563_2_alg».proof.Proof.Spec

set_option maxRecDepth 16384

noncomputable section

namespace Cert.Sage.Ref

open Idealize.ShloMosaic Idealize.ShloMosaic.TcCoe Idealize.ShloMosaic.ValueIdx Idealize.SL.Sem
open Cert.ReferenceIdeal Cert.ReferenceIdeal.Read Cert.Sage

/-- The reference's three contraction records are plain rows × columns ones. -/
theorem plain_users : Plain dot_S100000x64_S64x128_S100000x128_1_0_0_1_n_n where
  hr := rfl
  hs := rfl
  hl0 := fun j q => by
    unfold DotDims.lhsIdx
    rw [dif_neg (show ¬(0 : Fin S100000x64.rank) ∈ dot_S100000x64_S64x128_S100000x128_1_0_0_1_n_n.lhsBatch by decide), dif_pos (show (0 : Fin S100000x64.rank) ∈ dot_S100000x64_S64x128_S100000x128_1_0_0_1_n_n.lhsNonContracting by decide)]
    rfl
  hl1 := fun j q => dot_S100000x64_S64x128_S100000x128_1_0_0_1_n_n.lhsIdx_val_of_single rfl j q
  hr0 := fun j q => dot_S100000x64_S64x128_S100000x128_1_0_0_1_n_n.rhsIdx_val_of_single rfl j q
  hr1 := fun j q => by
    unfold DotDims.rhsIdx
    rw [dif_neg (show ¬(1 : Fin S64x128.rank) ∈ dot_S100000x64_S64x128_S100000x128_1_0_0_1_n_n.rhsBatch by decide), dif_pos (show (1 : Fin S64x128.rank) ∈ dot_S100000x64_S64x128_S100000x128_1_0_0_1_n_n.rhsNonContracting by decide)]
    rfl

theorem plain_games : Plain dot_S20000x128_S128x128_S20000x128_1_0_0_1_n_n where
  hr := rfl
  hs := rfl
  hl0 := fun j q => by
    unfold DotDims.lhsIdx
    rw [dif_neg (show ¬(0 : Fin S20000x128.rank) ∈ dot_S20000x128_S128x128_S20000x128_1_0_0_1_n_n.lhsBatch by decide), dif_pos (show (0 : Fin S20000x128.rank) ∈ dot_S20000x128_S128x128_S20000x128_1_0_0_1_n_n.lhsNonContracting by decide)]
    rfl
  hl1 := fun j q => dot_S20000x128_S128x128_S20000x128_1_0_0_1_n_n.lhsIdx_val_of_single rfl j q
  hr0 := fun j q => dot_S20000x128_S128x128_S20000x128_1_0_0_1_n_n.rhsIdx_val_of_single rfl j q
  hr1 := fun j q => by
    unfold DotDims.rhsIdx
    rw [dif_neg (show ¬(1 : Fin S128x128.rank) ∈ dot_S20000x128_S128x128_S20000x128_1_0_0_1_n_n.rhsBatch by decide), dif_pos (show (1 : Fin S128x128.rank) ∈ dot_S20000x128_S128x128_S20000x128_1_0_0_1_n_n.rhsNonContracting by decide)]
    rfl

theorem plain_update : Plain dot_S100000x128_S128x128_S100000x128_1_0_0_1_n_n where
  hr := rfl
  hs := rfl
  hl0 := fun j q => by
    unfold DotDims.lhsIdx
    rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
    rfl
  hl1 := fun j q => dot_S100000x128_S128x128_S100000x128_1_0_0_1_n_n.lhsIdx_val_of_single rfl j q
  hr0 := fun j q => dot_S100000x128_S128x128_S100000x128_1_0_0_1_n_n.rhsIdx_val_of_single rfl j q
  hr1 := fun j q => by
    unfold DotDims.rhsIdx
    rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
    rfl

/-- The reference's projected user features. -/
theorem users (x0 : (⟨S100000x64, .f32⟩ : BufTy).Contents (Elt Ideal)) (x2 : (⟨S64x128, .f32⟩ : BufTy).Contents (Elt Ideal)) (x3 : (⟨S128, .f32⟩ : BufTy).Contents (Elt Ideal))
    (hsb : S128.ShapeCasts S1x128) :
    val_main_v4 (F := Ideal) x0 x2 x3 = project x0 x2 (shapeCast S1x128 x3 hsb) :=
  project_host dot_S100000x64_S64x128_S100000x128_1_0_0_1_n_n plain_users x0 x2 x3 _ _ _ hsb

/-- The reference's projected game features. -/
theorem games (x1 : (⟨S20000x128, .f32⟩ : BufTy).Contents (Elt Ideal)) (x4 : (⟨S128x128, .f32⟩ : BufTy).Contents (Elt Ideal)) (x5 : (⟨S128, .f32⟩ : BufTy).Contents (Elt Ideal))
    (hsb : S128.ShapeCasts S1x128) :
    val_main_v9 (F := Ideal) x1 x4 x5 = project x1 x4 (shapeCast S1x128 x5 hsb) :=
  project_host dot_S20000x128_S128x128_S20000x128_1_0_0_1_n_n plain_games x1 x4 x5 _ _ _ hsb

/-- The reference's game result. -/
theorem game_result (x0 : (⟨S100000x64, .f32⟩ : BufTy).Contents (Elt Ideal)) (x1 : (⟨S20000x128, .f32⟩ : BufTy).Contents (Elt Ideal)) (x2 : (⟨S64x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal))
    (x12 x13 : (⟨S1600000, .i32⟩ : BufTy).Contents (Elt Ideal))
    (hsb : S128.ShapeCasts S1x128) (hsc : S20000.ShapeCasts S20000x1) :
    val_main_v34 (F := Ideal) x0 x1 x2 x3 x4 x5 x6 x7 x8 x12 x13
      = combine (val_main_v19 (F := Ideal) x0 x2 x3 x12 x13) (shapeCast S20000x1 (val_main_v23 (F := Ideal) x13) hsc)
          (project x1 x4 (shapeCast S1x128 x5 hsb)) x6 x8 (shapeCast S1x128 x7 hsb) := by
  rw [← games x1 x4 x5 hsb]
  exact combine_host dot_S20000x128_S128x128_S20000x128_1_0_0_1_n_n plain_games (val_main_v19 (F := Ideal) x0 x2 x3 x12 x13)
    (val_main_v23 (F := Ideal) x13) (val_main_v9 (F := Ideal) x1 x4 x5) x6 x8 x7 _ _ _ _ _ hsb hsc

/-- The reference's user result. -/
theorem user_result (x0 : (⟨S100000x64, .f32⟩ : BufTy).Contents (Elt Ideal)) (x1 : (⟨S20000x128, .f32⟩ : BufTy).Contents (Elt Ideal)) (x2 : (⟨S64x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal))
    (x14 x15 : (⟨S1600000, .i32⟩ : BufTy).Contents (Elt Ideal))
    (hsb : S128.ShapeCasts S1x128) (hsc : S100000.ShapeCasts S100000x1) :
    val_main_v59 (F := Ideal) x0 x1 x2 x3 x4 x5 x9 x10 x11 x14 x15
      = combine (val_main_v44 (F := Ideal) x1 x4 x5 x14 x15) (shapeCast S100000x1 (val_main_v48 (F := Ideal) x15) hsc)
          (project x0 x2 (shapeCast S1x128 x3 hsb)) x9 x11 (shapeCast S1x128 x10 hsb) := by
  rw [← users x0 x2 x3 hsb]
  exact combine_host dot_S100000x128_S128x128_S100000x128_1_0_0_1_n_n plain_update (val_main_v44 (F := Ideal) x1 x4 x5 x14 x15)
    (val_main_v48 (F := Ideal) x15) (val_main_v4 (F := Ideal) x0 x2 x3) x9 x11 x10 _ _ _ _ _ hsb hsc

end Cert.Sage.Ref

end
-- ==== Proof.Bridge.lean ====
/-
  The kernel program and the reference compute one function of the arguments.

  Both project the two feature arrays the same way (`project`).  Both then gather, per edge, the projected row of the
  edge's source and add it into the row of the edge's destination, and count the edges into each destination: the
  same host operations on the same projected features and the same index arrays (the kernel program widens the
  gathered rows from a narrower float format first, which is the identity on the extended reals).  Both finish with
  the relation update (`combine`) of those sums and counts.  So each result array of the kernel program is the
  reference's stage of the same name, applied to the launch contents of the arguments.
-/
import proofs.«167684_j89412629168563_2_alg».proof.Proof.Entry
import proofs.«167684_j89412629168563_2_alg».proof.Proof.RefValue

set_option maxRecDepth 16384

noncomputable section

namespace Cert.Sage.Bridge

open Idealize.ShloMosaic Idealize.ShloMosaic.TcCoe Idealize.ShloMosaic.ValueIdx Idealize.SL.Sem Idealize.ShloMosaic.StableHlo
open Cert.KernelIdeal Cert.KernelIdeal.Gen Cert.Sage
open Cert.ReferenceIdeal.Read (val_main_v19 val_main_v16 val_main_v23 val_main_v34 val_main_v44 val_main_v41 val_main_v48 val_main_v59)

variable (m : (ℓ : Loc nD τ sig) → Buf (Elt Ideal) ℓ) (ρ : Dev nD → PrngReg)

/-- A change of float format is the identity on the extended reals. -/
theorem widen_id {s : Shape} (x : FVec Ideal s .bf16) (h : FTy.bf16.bits < FTy.f32.bits) :
    (extf .f32 x h : FVec Ideal s .f32) = x := rfl

set_option maxHeartbeats 4000000 in
/-- The neighbour sums onto the games are the reference's. -/
theorem sum_games (c : Dev nD) : V5 m ρ c main_v14
    = val_main_v19 (F := Ideal) (m ((c : Thread nD τ).loc main_arg0)) (m ((c : Thread nD τ).loc main_arg2)) (m ((c : Thread nD τ).loc main_arg3)) (m ((c : Thread nD τ).loc main_arg12)) (m ((c : Thread nD τ).loc main_arg13)) := by
  show StableHlo.after hostOps2 (W4 m ρ c) (Proc.devRef .tc main_v14) = _
  after_results_simp
  rw [Entry.at4_arg12 m ρ c, Entry.at4_arg13 m ρ c, Entry.users4 m ρ c, widen_id]
  unfold val_main_v19 val_main_v16
  rw [Ref.users _ _ _ shapeCasts_S128_S1x128]
  rfl

/-- The neighbour counts onto the games are the reference's, seen as a column. -/
theorem count_games (c : Dev nD) : V5 m ρ c main_v19
    = shapeCast S20000x1 (val_main_v23 (F := Ideal) (m ((c : Thread nD τ).loc main_arg13))) shapeCasts_S20000_S20000x1 := by
  show StableHlo.after hostOps2 (W4 m ρ c) (Proc.devRef .tc main_v19) = _
  after_results
  rw [Entry.at4_arg13 m ρ c]
  rfl

set_option maxHeartbeats 4000000 in
/-- The neighbour sums onto the users are the reference's. -/
theorem sum_users (c : Dev nD) : V5 m ρ c main_v30
    = val_main_v44 (F := Ideal) (m ((c : Thread nD τ).loc main_arg1)) (m ((c : Thread nD τ).loc main_arg4)) (m ((c : Thread nD τ).loc main_arg5)) (m ((c : Thread nD τ).loc main_arg14)) (m ((c : Thread nD τ).loc main_arg15)) := by
  show StableHlo.after hostOps2 (W4 m ρ c) (Proc.devRef .tc main_v30) = _
  after_results_simp
  rw [Entry.at4_arg14 m ρ c, Entry.at4_arg15 m ρ c, Entry.games m ρ c, widen_id]
  unfold val_main_v44 val_main_v41
  rw [Ref.games _ _ _ shapeCasts_S128_S1x128]
  rfl

/-- The neighbour counts onto the users are the reference's, seen as a column. -/
theorem count_users (c : Dev nD) : V5 m ρ c main_v35
    = shapeCast S100000x1 (val_main_v48 (F := Ideal) (m ((c : Thread nD τ).loc main_arg15))) shapeCasts_S100000_S100000x1 := by
  show StableHlo.after hostOps2 (W4 m ρ c) (Proc.devRef .tc main_v35) = _
  after_results
  rw [Entry.at4_arg15 m ρ c]
  rfl

/-- The kernel program's game result is the reference's. -/
theorem game_eq (c : Dev nD) : W8 m ρ c (Proc.devRef .tc main_v37)
    = val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13)) := by
  rw [Entry.game_result m ρ c, sum_games m ρ c, count_games m ρ c, Entry.r2_h m ρ c, Entry.r2_wl m ρ c, Entry.r2_wr m ρ c, Entry.r2_b m ρ c]
  exact (Ref.game_result _ _ _ _ _ _ _ _ _ _ _ shapeCasts_S128_S1x128 shapeCasts_S20000_S20000x1).symm

/-- The kernel program's user result is the reference's. -/
theorem user_eq (c : Dev nD) : W8 m ρ c (Proc.devRef .tc main_v39)
    = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg11)) (m ((c : Thread nD τ).loc main_arg14)) (m ((c : Thread nD τ).loc main_arg15)) := by
  rw [Entry.user_result m ρ c, Entry.r3_s m ρ c, Entry.r3_c m ρ c, sum_users m ρ c, count_users m ρ c, Entry.r3_h m ρ c, Entry.r3_wl m ρ c, Entry.r3_wr m ρ c, Entry.r3_b m ρ c]
  exact (Ref.user_result _ _ _ _ _ _ _ _ _ _ _ shapeCasts_S128_S1x128 shapeCasts_S100000_S100000x1).symm

end Cert.Sage.Bridge

end
-- ==== Proof.lean ====
/-
  The certificate of the two-relation mean-aggregation layer.

  The kernel program projects the user and the game features on the matrix unit, row tile by row tile (two
  regions), lets the host gather the projected source rows along the edges and add them up per destination, and
  finishes each relation with a second tiled region that divides the sums by the clamped counts and applies the
  relation's two weight matrices and bias.  The reference does the same with whole-array host operations.  Over the
  extended reals each result entry is the same tree of sums, products, quotients and maxima on both sides, so the two
  programs agree without any appeal to the finiteness of the inputs; the idealization rewrote nothing, so it is
  preserved trivially; and each program's run leaves its argument arrays as launched.
-/
import proofs.«167684_j89412629168563_2_alg».proof.Defs
import proofs.«167684_j89412629168563_2_alg».proof.Proof.Gen.Kernel
import proofs.«167684_j89412629168563_2_alg».proof.Proof.Gen.Kernel.Frame
import proofs.«167684_j89412629168563_2_alg».proof.Proof.Gen.KernelIdeal
import proofs.«167684_j89412629168563_2_alg».proof.Proof.Gen.KernelIdeal.Frame
import proofs.«167684_j89412629168563_2_alg».proof.Proof.Gen.ReferenceIdeal
import proofs.«167684_j89412629168563_2_alg».proof.Proof.Gen.ReferenceIdeal.Run
import proofs.«167684_j89412629168563_2_alg».proof.Proof.Gen.ReferenceIdeal.Read
import proofs.«167684_j89412629168563_2_alg».proof.Proof.Gen.Pre_finite_inputs
import proofs.«167684_j89412629168563_2_alg».proof.Proof.KernelRun
import proofs.«167684_j89412629168563_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- The idealized kernel program runs and keeps its arguments. -/
theorem frame_kernel_ideal : Cert.frame_KernelIdeal := fun m ρ _ => Cert.KernelIdeal.Gen.frame m ρ

/-- The reference runs and keeps its arguments: its run with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs end with the reference's two stages applied to the launch contents of the kernel program's
    arguments: the kernel program by the bridge, the reference by its own run at arguments that agree. -/
theorem algebraic : Cert.algebraic_KernelIdeal_ReferenceIdeal := by
  intro m ρ m' ρ' _ hagree
  refine ⟨_, _, (θ_run Cert.KernelIdeal.defs _ _).mono (fun r h c =>
      ⟨(h c).1.trans (Cert.Sage.Bridge.user_eq m ρ c), (h c).2.1.trans (Cert.Sage.Bridge.game_eq m ρ c), (h c).2.2⟩)
    (Cert.Sage.KernelRun.run (F := Ideal) m ρ), ?_⟩
  refine (θ_run Cert.ReferenceIdeal.defs _ _).mono (fun r h c => ?_) (Cert.ReferenceIdeal.Value.run (F := Ideal) m' ρ')
  obtain ⟨a0, a1, a2, a3, a4, a5, a6, a7, a8, a9, a10, a11, a12, a13, a14, a15⟩ := hagree c
  refine ⟨(h c).1.trans ?_, (h c).2.1.trans ?_, (h c).2.2⟩
  · rw [a0, a1, a2, a3, a4, a5, a9, a10, a11, a14, a15]
    rfl
  · rw [a0, a1, a2, a3, a4, a5, a6, a7, a8, a12, a13]
    rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
